-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3072x2048 : Shape := ⟨3, ![2, 3072, 2048]⟩
abbrev S32x2048x128 : Shape := ⟨3, ![32, 2048, 128]⟩
abbrev S192x128 : Shape := ⟨2, ![192, 128]⟩
abbrev S_ : Shape := ⟨0, ![]⟩

class Facts : Prop where
  bcast_S_S2x3072x2048 : S_.BroadcastsInDim S2x3072x2048 (![] : Fin 0 → Fin S2x3072x2048.rank)
  reducesTo_S2x3072x2048_S_d0_1_2 : S2x3072x2048.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S192x128 : S_.BroadcastsInDim S192x128 (![] : Fin 0 → Fin S192x128.rank)
  reducesTo_S192x128_S_d0_1 : S192x128.ReducesTo [0, 1] S_

variable [Facts]

def fn {F : FTy → Type} [FloatOps F] (main_arg0 : FVec F S2x3072x2048 .f32) (main_arg1 : FVec F S32x2048x128 .f32) (main_arg2 : FVec F S192x128 .f32) : IVec S_ 1 :=
  let main_v0 : FVec F S2x3072x2048 .f32 := Host.absf main_arg0
  let main_cst : FVec F S_ .f32 := constant S_ .f32 0x7F800000#32
  let main_v1 : FVec F S2x3072x2048 .f32 := broadcastInDim S2x3072x2048 ![] bcast_S_S2x3072x2048 main_cst
  let main_v2 : IVec S2x3072x2048 1 := cmpf .olt main_v0 main_v1
  let main_c : IVec S_ 1 := constantI S_ 1 1#1
  let main_v3 : IVec S_ 1 := (fun x v => Host.reduce IntOp.andi x v reducesTo_S2x3072x2048_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  main_v13
-- ==== Kernel.lean ====
abbrev S2x3072x2048 : Shape := ⟨3, ![2, 3072, 2048]⟩
abbrev S32x2048x128 : Shape := ⟨3, ![32, 2048, 128]⟩
abbrev S192x128 : Shape := ⟨2, ![192, 128]⟩
abbrev S32x192x2048 : Shape := ⟨3, ![32, 192, 2048]⟩
abbrev S32x64x2048 : Shape := ⟨3, ![32, 64, 2048]⟩
abbrev S2x192x2048 : Shape := ⟨3, ![2, 192, 2048]⟩
abbrev S2x2048x128 : Shape := ⟨3, ![2, 2048, 128]⟩
abbrev S2x64x2048 : Shape := ⟨3, ![2, 64, 2048]⟩
abbrev S1x2048x128 : Shape := ⟨3, ![1, 2048, 128]⟩
abbrev S2048x128 : Shape := ⟨2, ![2048, 128]⟩
abbrev S192x2048 : Shape := ⟨2, ![192, 2048]⟩
abbrev S1x64x2048 : Shape := ⟨3, ![1, 64, 2048]⟩
abbrev S64x2048 : Shape := ⟨2, ![64, 2048]⟩
abbrev S2048x64 : Shape := ⟨2, ![2048, 64]⟩
abbrev S2048x8 : Shape := ⟨2, ![2048, 8]⟩
abbrev S2048x72 : Shape := ⟨2, ![2048, 72]⟩
abbrev S64x1024 : Shape := ⟨2, ![64, 1024]⟩
abbrev S1024x2048 : Shape := ⟨2, ![1024, 2048]⟩
abbrev S1024x72 : Shape := ⟨2, ![1024, 72]⟩
abbrev S2048x1 : Shape := ⟨2, ![2048, 1]⟩
abbrev S2x1024x2048 : Shape := ⟨3, ![2, 1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2x3072x2048, .f32⟩
  | .hbm, ⟨1, _⟩ => ⟨S32x2048x128, .f32⟩
  | .hbm, ⟨2, _⟩ => ⟨S192x128, .f32⟩
  | .hbm, ⟨3, _⟩ => ⟨S32x192x2048, .f32⟩
  | .hbm, ⟨4, _⟩ => ⟨S32x64x2048, .f32⟩
  | .hbm, ⟨5, _⟩ => ⟨S2x1024x2048, .f32⟩
  | .local _ .vmem, ⟨0, _⟩ => ⟨S2x192x2048, .f32⟩
  | .local _ .vmem, ⟨1, _⟩ => ⟨S2x192x2048, .f32⟩
  | .local _ .vmem, ⟨2, _⟩ => ⟨S2x2048x128, .f32⟩
  | .local _ .vmem, ⟨3, _⟩ => ⟨S2x2048x128, .f32⟩
  | .local _ .vmem, ⟨4, _⟩ => ⟨S192x128, .f32⟩
  | .local _ .vmem, ⟨5, _⟩ => ⟨S2x64x2048, .f32⟩
  | .local _ .vmem, ⟨6, _⟩ => ⟨S2x64x2048, .f32⟩
  | _, _ => ⟨S2x3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x3072x2048_S32x192x2048 : S2x3072x2048.ShapeCasts S32x192x2048
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S192x128_S192x128_0_0 : ∀ a, (![0, 0] : Fin 2 → Nat) a + S192x128.size a ≤ S192x128.size a
  h_S192x128 : 0 < S192x128.numel
  inb_S2x192x2048_S1x64x2048_0_0_0 : ∀ a, (![0, 0, 0] : Fin 3 → Nat) a + S1x64x2048.size a ≤ S2x192x2048.size a
  h_S1x64x2048 : 0 < S1x64x2048.numel
  shapeCasts_S1x64x2048_S64x2048 : S1x64x2048.ShapeCasts S64x2048
  slices_S192x2048_o0_0_S64x2048 : S192x2048.Slices ![0, 0] S64x2048
  inb_S2x192x2048_S1x64x2048_0_64_0 : ∀ a, (![0, 64, 0] : Fin 3 → Nat) a + S1x64x2048.size a ≤ S2x192x2048.size a
  slices_S192x2048_o64_0_S64x2048 : S192x2048.Slices ![64, 0] S64x2048
  inb_S2x192x2048_S1x64x2048_0_128_0 : ∀ a, (![0, 128, 0] : Fin 3 → Nat) a + S1x64x2048.size a ≤ S2x192x2048.size a
  slices_S192x2048_o128_0_S64x2048 : S192x2048.Slices ![128, 0] S64x2048
  transposes_S64x2048_p1_0_S2048x64 : S64x2048.Transposes [1, 0] S2048x64
  concatenates_S2048x64_S2048x8_S2048x72_d1 : Shape.Concatenates [S2048x64, S2048x8] S2048x72 1
  bitsLt_bf16_f32 : FTy.bits .bf16 < FTy.bits .f32
  slices_S64x2048_o0_0_S64x1024 : S64x2048.Slices ![0, 0] S64x1024
  slices_S64x2048_o0_1024_S64x1024 : S64x2048.Slices ![0, 1024] S64x1024
  concatenates_S1024x72_S1024x72_S2048x72_d0 : Shape.Concatenates [S1024x72, S1024x72] S2048x72 0
  slices_S2048x72_o0_0_S2048x64 : S2048x72.Slices ![0, 0] S2048x64
  slices_S2048x72_o0_64_S2048x1 : S2048x72.Slices ![0, 64] S2048x1
  broadcasts_S2048x1_S2048x64 : S2048x1.Broadcasts S2048x64
  transposes_S2048x64_p1_0_S64x2048 : S2048x64.Transposes [1, 0] S64x2048
  inb_S2x64x2048_S1x64x2048_0_0_0 : ∀ a, (![0, 0, 0] : Fin 3 → Nat) a + S1x64x2048.size a ≤ S2x64x2048.size a
  shapeCasts_S64x2048_S1x64x2048 : S64x2048.ShapeCasts S1x64x2048
  inb_S2x2048x128_S1x2048x128_1_0_0 : ∀ a, (![1, 0, 0] : Fin 3 → Nat) a + S1x2048x128.size a ≤ S2x2048x128.size a
  inb_S2x192x2048_S1x64x2048_1_0_0 : ∀ a, (![1, 0, 0] : Fin 3 → Nat) a + S1x64x2048.size a ≤ S2x192x2048.size a
  inb_S2x192x2048_S1x64x2048_1_64_0 : ∀ a, (![1, 64, 0] : Fin 3 → Nat) a + S1x64x2048.size a ≤ S2x192x2048.size a
  inb_S2x192x2048_S1x64x2048_1_128_0 : ∀ a, (![1, 128, 0] : Fin 3 → Nat) a + S1x64x2048.size a ≤ S2x192x2048.size a
  inb_S2x64x2048_S1x64x2048_1_0_0 : ∀ a, (![1, 0, 0] : Fin 3 → Nat) a + S1x64x2048.size a ≤ S2x64x2048.size a
  shapeCasts_S32x64x2048_S2x1024x2048 : S32x64x2048.ShapeCasts S2x1024x2048
  dot_S192x128_S2048x128_S192x2048_1_1_0_0_n_n_wf : DotDims.WF S192x128 S2048x128 S192x2048 [1] [1] [0] [0] [] []
  dot_S64x1024_S64x2048_S1024x2048_0_0_1_1_n_n_wf : DotDims.WF S64x1024 S64x2048 S1024x2048 [0] [0] [1] [1] [] []
  dot_S1024x2048_S2048x72_S1024x72_1_0_0_1_n_n_wf : DotDims.WF S1024x2048 S2048x72 S1024x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x192x2048.size a ≤ S32x192x2048.size a
  hwx0_0 : ∀ i : grid0.Coords, EltTy.bits .f32 = 32 ∨ (Rect.block (s := S32x192x2048) S2x192x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S32x2048x128.size a
  hwx0_1 : ∀ i : grid0.Coords, EltTy.bits .f32 = 32 ∨ (Rect.block (s := S32x2048x128) S2x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x2048.size a ≤ S32x64x2048.size a
  hwx0_3 : ∀ i : grid0.Coords, EltTy.bits .f32 = 32 ∨ (Rect.block (s := S32x64x2048) S2x64x2048.size (cc0_transform_3 i) (hinb0_3 i)).WholeWords (EltTy.packing .f32)

variable [Facts₀]

def dot_S192x128_S2048x128_S192x2048_1_1_0_0_n_n : DotDims S192x128 S2048x128 S192x2048 where
  lhsContracting := [1]
  rhsContracting := [1]
  lhsNonContracting := [0]
  rhsNonContracting := [0]
  lhsBatch := []
  rhsBatch := []
  wf := dot_S192x128_S2048x128_S192x2048_1_1_0_0_n_n_wf
def dot_S64x1024_S64x2048_S1024x2048_0_0_1_1_n_n : DotDims S64x1024 S64x2048 S1024x2048 where
  lhsContracting := [0]
  rhsContracting := [0]
  lhsNonContracting := [1]
  rhsNonContracting := [1]
  lhsBatch := []
  rhsBatch := []
  wf := dot_S64x1024_S64x2048_S1024x2048_0_0_1_1_n_n_wf
def dot_S1024x2048_S2048x72_S1024x72_1_0_0_1_n_n : DotDims S1024x2048 S2048x72 S1024x72 where
  lhsContracting := [1]
  rhsContracting := [0]
  lhsNonContracting := [0]
  rhsNonContracting := [1]
  lhsBatch := []
  rhsBatch := []
  wf := dot_S1024x2048_S2048x72_S1024x72_1_0_0_1_n_n_wf

abbrev win0_0 : Pipeline.Window sig grid0 :=
  Pipeline.Window.ofSpec (Memref.whole main_v0) S2x192x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x3072x2048 : Shape := ⟨3, ![2, 3072, 2048]⟩
abbrev S32x2048x128 : Shape := ⟨3, ![32, 2048, 128]⟩
abbrev S192x128 : Shape := ⟨2, ![192, 128]⟩
abbrev S32x192x2048 : Shape := ⟨3, ![32, 192, 2048]⟩
abbrev S32x64x2048 : Shape := ⟨3, ![32, 64, 2048]⟩
abbrev S32x2048x192 : Shape := ⟨3, ![32, 2048, 192]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩
abbrev S2x1024x2048 : Shape := ⟨3, ![2, 1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x3072x2048, .f32⟩
  | .hbm, ⟨1, _⟩ => ⟨S32x2048x128, .f32⟩
  | .hbm, ⟨2, _⟩ => ⟨S192x128, .f32⟩
  | .hbm, ⟨3, _⟩ => ⟨S32x192x2048, .f32⟩
  | .hbm, ⟨4, _⟩ => ⟨S32x64x2048, .f32⟩
  | .hbm, ⟨5, _⟩ => ⟨S32x64x2048, .f32⟩
  | .hbm, ⟨6, _⟩ => ⟨S32x64x2048, .f32⟩
  | .hbm, ⟨7, _⟩ => ⟨S32x2048x192, .f32⟩
  | .hbm, ⟨8, _⟩ => ⟨S32x192x2048, .f32⟩
  | .hbm, ⟨9, _⟩ => ⟨S32x64x2048, .f32⟩
  | .hbm, ⟨10, _⟩ => ⟨S32x64x2048, .f32⟩
  | .hbm, ⟨11, _⟩ => ⟨S32x64x2048, .f32⟩
  | .hbm, ⟨12, _⟩ => ⟨S32x64x2048, .f32⟩
  | .hbm, ⟨13, _⟩ => ⟨S_, .f32⟩
  | .hbm, ⟨14, _⟩ => ⟨S32x64x2048, .f32⟩
  | .hbm, ⟨15, _⟩ => ⟨S32x64x2048, .f32⟩
  | .hbm, ⟨16, _⟩ => ⟨S32x64x2048, .f32⟩
  | .hbm, ⟨17, _⟩ => ⟨S_, .f32⟩
  | .hbm, ⟨18, _⟩ => ⟨S32x64x2048, .f32⟩
  | .hbm, ⟨19, _⟩ => ⟨S32x64x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048x1, .f32⟩
  | .hbm, ⟨27, _⟩ => ⟨S32x2048x2048, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S32x2048x2048, .f32⟩
  | .hbm, ⟨34, _⟩ => ⟨S32x2048x2048, .f32⟩
  | .hbm, ⟨35, _⟩ => ⟨S32x64x2048, .f32⟩
  | .hbm, ⟨36, _⟩ => ⟨S32x64x2048, .f32⟩
  | .hbm, ⟨37, _⟩ => ⟨S2x1024x2048, .f32⟩
  | _, _ => ⟨S2x3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x3072x2048_S32x192x2048 : S2x3072x2048.ShapeCasts S32x192x2048
  slices_S32x192x2048_S32x64x2048_0_0_0 : S32x192x2048.Slices ![0, 0, 0] S32x64x2048
  slices_S32x192x2048_S32x64x2048_0_64_0 : S32x192x2048.Slices ![0, 64, 0] S32x64x2048
  slices_S32x192x2048_S32x64x2048_0_128_0 : S32x192x2048.Slices ![0, 128, 0] S32x64x2048
  transposes_S32x2048x192_S32x192x2048_0_2_1 : S32x2048x192.Transposes [0, 2, 1] S32x192x2048
  bcast_S_S32x64x2048 : S_.BroadcastsInDim S32x64x2048 (![] : Fin 0 → Fin S32x64x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  shapeCasts_S32x64x2048_S2x1024x2048 : S32x64x2048.ShapeCasts S2x1024x2048
  dot_S32x2048x128_S192x128_S32x2048x192_2_1_01_0_n_n_wf : DotDims.WF S32x2048x128 S192x128 S32x2048x192 [2] [1] [0, 1] [0] [] []
  dot_S32x64x2048_S32x64x2048_S32x2048x2048_1_1_2_2_0_0_wf : DotDims.WF S32x64x2048 S32x64x2048 S32x2048x2048 [1] [1] [2] [2] [0] [0]
  dot_S32x64x2048_S32x2048x2048_S32x64x2048_2_2_1_1_0_0_wf : DotDims.WF S32x64x2048 S32x2048x2048 S32x64x2048 [2] [2] [1] [1] [0] [0]

variable [Facts₀]

def dot_S32x2048x128_S192x128_S32x2048x192_2_1_01_0_n_n : DotDims S32x2048x128 S192x128 S32x2048x192 where
  lhsContracting := [2]
  rhsContracting := [1]
  lhsNonContracting := [0, 1]
  rhsNonContracting := [0]
  lhsBatch := []
  rhsBatch := []
  wf := dot_S32x2048x128_S192x128_S32x2048x192_2_1_01_0_n_n_wf
def dot_S32x64x2048_S32x64x2048_S32x2048x2048_1_1_2_2_0_0 : DotDims S32x64x2048 S32x64x2048 S32x2048x2048 where
  lhsContracting := [1]
  rhsContracting := [1]
  lhsNonContracting := [2]
  rhsNonContracting := [2]
  lhsBatch := [0]
  rhsBatch := [0]
  wf := dot_S32x64x2048_S32x64x2048_S32x2048x2048_1_1_2_2_0_0_wf
def dot_S32x64x2048_S32x2048x2048_S32x64x2048_2_2_1_1_0_0 : DotDims S32x64x2048 S32x2048x2048 S32x64x2048 where
  lhsContracting := [2]
  rhsContracting := [2]
  lhsNonContracting := [1]
  rhsNonContracting := [1]
  lhsBatch := [0]
  rhsBatch := [0]
  wf := dot_S32x64x2048_S32x2048x2048_S32x64x2048_2_2_1_1_0_0_wf

class Facts : Prop extends Facts₀ where

variable [Facts]
-- ==== Proof.KernelOps.lean ====
/-
  The kernel's vector operations read at one index, at the exact values.

  Each lemma says what one entry of an operation's result is in terms of entries of its operands: the three matrix
  products of a head as plain sums over the contracted coordinate (the null-token projection W · eᵀ over the embedding
  coordinate, the logits qᵀ · k over the channels, the weighted values over the key positions), a keep-dims column spread
  over a row, the values extended by a block of ones on the right, and two row tiles stacked.
-/
import proofs.«133506_g25683904430144_cont_9to1_844_27_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Idealize.ShloMosaic Idealize.ShloMosaic.ValueIdx Cert.KernelIdeal

theorem projDot_lhs_0 (i : S192x2048.Idx) (q : dot_S192x128_S2048x128_S192x2048_1_1_0_0_n_n.contr.Idx) :
    (dot_S192x128_S2048x128_S192x2048_1_1_0_0_n_n.lhsIdx i q 0).val = (i 0).val := by
  unfold DotDims.lhsIdx
  rw [dif_neg (show ¬(0 : Fin S192x128.rank) ∈ dot_S192x128_S2048x128_S192x2048_1_1_0_0_n_n.lhsBatch by decide), dif_pos (show (0 : Fin S192x128.rank) ∈ dot_S192x128_S2048x128_S192x2048_1_1_0_0_n_n.lhsNonContracting by decide)]
  rfl
theorem projDot_lhs_1 (i : S192x2048.Idx) (q : dot_S192x128_S2048x128_S192x2048_1_1_0_0_n_n.contr.Idx) :
    (dot_S192x128_S2048x128_S192x2048_1_1_0_0_n_n.lhsIdx i q 1).val = (q ⟨0, by decide⟩).val :=
  dot_S192x128_S2048x128_S192x2048_1_1_0_0_n_n.lhsIdx_val_of_single rfl i q
theorem projDot_rhs_0 (i : S192x2048.Idx) (q : dot_S192x128_S2048x128_S192x2048_1_1_0_0_n_n.contr.Idx) :
    (dot_S192x128_S2048x128_S192x2048_1_1_0_0_n_n.rhsIdx i q 0).val = (i 1).val := by
  unfold DotDims.rhsIdx
  rw [dif_neg (show ¬(0 : Fin S2048x128.rank) ∈ dot_S192x128_S2048x128_S192x2048_1_1_0_0_n_n.rhsBatch by decide), dif_pos (show (0 : Fin S2048x128.rank) ∈ dot_S192x128_S2048x128_S192x2048_1_1_0_0_n_n.rhsNonContracting by decide)]
  rfl
theorem projDot_rhs_1 (i : S192x2048.Idx) (q : dot_S192x128_S2048x128_S192x2048_1_1_0_0_n_n.contr.Idx) :
    (dot_S192x128_S2048x128_S192x2048_1_1_0_0_n_n.rhsIdx i q 1).val = (q ⟨0, by decide⟩).val :=
  dot_S192x128_S2048x128_S192x2048_1_1_0_0_n_n.rhsIdx_val_of_single rfl i q
/-- The projection of the embeddings: entry (o, t) of W · eᵀ is Σ_k W(o, k) · e(t, k). -/
theorem projDot {φ₁ φ₂ : FTy} (l : FVec Ideal S192x128 φ₁) (r : FVec Ideal S2048x128 φ₂) (a : Fin 192) (b : Fin 2048) :
    matmul dot_S192x128_S2048x128_S192x2048_1_1_0_0_n_n none l r (constant S192x2048 .f32 0x00000000#32) (ix2 a b)
      = ∑ k : Fin 128, l (ix2 a k) * r (ix2 b k) := by
  show FloatOps.matmul _ _ _ _ _ _ = _
  rw [Ideal.matmul_constant_zero_apply, ← Equiv.sum_comp (contrEquiv1 dot_S192x128_S2048x128_S192x2048_1_1_0_0_n_n 128 rfl rfl).symm]
  refine Finset.sum_congr rfl fun k _ => ?_
  have hk := contrEquiv1_symm_val dot_S192x128_S2048x128_S192x2048_1_1_0_0_n_n 128 rfl rfl k
  have el : dot_S192x128_S2048x128_S192x2048_1_1_0_0_n_n.lhsIdx (ix2 a b) ((contrEquiv1 dot_S192x128_S2048x128_S192x2048_1_1_0_0_n_n 128 rfl rfl).symm k) = ix2 a k := funext fun ax => Fin.ext (by
    match ax with
    | ⟨0, _⟩ => exact projDot_lhs_0 _ _
    | ⟨1, _⟩ => exact (projDot_lhs_1 _ _).trans hk)
  have er : dot_S192x128_S2048x128_S192x2048_1_1_0_0_n_n.rhsIdx (ix2 a b) ((contrEquiv1 dot_S192x128_S2048x128_S192x2048_1_1_0_0_n_n 128 rfl rfl).symm k) = ix2 b k := funext fun ax => Fin.ext (by
    match ax with
    | ⟨0, _⟩ => exact projDot_rhs_0 _ _
    | ⟨1, _⟩ => exact (projDot_rhs_1 _ _).trans hk)
  rw [el, er]

theorem logitDot_lhs_0 (i : S1024x2048.Idx) (q : dot_S64x1024_S64x2048_S1024x2048_0_0_1_1_n_n.contr.Idx) :
    (dot_S64x1024_S64x2048_S1024x2048_0_0_1_1_n_n.lhsIdx i q 0).val = (q ⟨0, by decide⟩).val :=
  dot_S64x1024_S64x2048_S1024x2048_0_0_1_1_n_n.lhsIdx_val_of_single rfl i q
theorem logitDot_lhs_1 (i : S1024x2048.Idx) (q : dot_S64x1024_S64x2048_S1024x2048_0_0_1_1_n_n.contr.Idx) :
    (dot_S64x1024_S64x2048_S1024x2048_0_0_1_1_n_n.lhsIdx i q 1).val = (i 0).val := by
  unfold DotDims.lhsIdx
  rw [dif_neg (show ¬(1 : Fin S64x1024.rank) ∈ dot_S64x1024_S64x2048_S1024x2048_0_0_1_1_n_n.lhsBatch by decide), dif_pos (show (1 : Fin S64x1024.rank) ∈ dot_S64x1024_S64x2048_S1024x2048_0_0_1_1_n_n.lhsNonContracting by decide)]
  rfl
theorem logitDot_rhs_0 (i : S1024x2048.Idx) (q : dot_S64x1024_S64x2048_S1024x2048_0_0_1_1_n_n.contr.Idx) :
    (dot_S64x1024_S64x2048_S1024x2048_0_0_1_1_n_n.rhsIdx i q 0).val = (q ⟨0, by decide⟩).val :=
  dot_S64x1024_S64x2048_S1024x2048_0_0_1_1_n_n.rhsIdx_val_of_single rfl i q
theorem logitDot_rhs_1 (i : S1024x2048.Idx) (q : dot_S64x1024_S64x2048_S1024x2048_0_0_1_1_n_n.contr.Idx) :
    (dot_S64x1024_S64x2048_S1024x2048_0_0_1_1_n_n.rhsIdx i q 1).val = (i 1).val := by
  unfold DotDims.rhsIdx
  rw [dif_neg (show ¬(1 : Fin S64x2048.rank) ∈ dot_S64x1024_S64x2048_S1024x2048_0_0_1_1_n_n.rhsBatch by decide), dif_pos (show (1 : Fin S64x2048.rank) ∈ dot_S64x1024_S64x2048_S1024x2048_0_0_1_1_n_n.rhsNonContracting by decide)]
  rfl
/-- The logits of a row tile: entry (t, s) of qᵀ · k is Σ_c q(c, t) · k(c, s). -/
theorem logitDot {φ₁ φ₂ : FTy} (l : FVec Ideal S64x1024 φ₁) (r : FVec Ideal S64x2048 φ₂) (a : Fin 1024) (b : Fin 2048) :
    matmul dot_S64x1024_S64x2048_S1024x2048_0_0_1_1_n_n none l r (constant S1024x2048 .f32 0x00000000#32) (ix2 a b)
      = ∑ k : Fin 64, l (ix2 k a) * r (ix2 k b) := by
  show FloatOps.matmul _ _ _ _ _ _ = _
  rw [Ideal.matmul_constant_zero_apply, ← Equiv.sum_comp (contrEquiv1 dot_S64x1024_S64x2048_S1024x2048_0_0_1_1_n_n 64 rfl rfl).symm]
  refine Finset.sum_congr rfl fun k _ => ?_
  have hk := contrEquiv1_symm_val dot_S64x1024_S64x2048_S1024x2048_0_0_1_1_n_n 64 rfl rfl k
  have el : dot_S64x1024_S64x2048_S1024x2048_0_0_1_1_n_n.lhsIdx (ix2 a b) ((contrEquiv1 dot_S64x1024_S64x2048_S1024x2048_0_0_1_1_n_n 64 rfl rfl).symm k) = ix2 k a := funext fun ax => Fin.ext (by
    match ax with
    | ⟨0, _⟩ => exact (logitDot_lhs_0 _ _).trans hk
    | ⟨1, _⟩ => exact logitDot_lhs_1 _ _)
  have er : dot_S64x1024_S64x2048_S1024x2048_0_0_1_1_n_n.rhsIdx (ix2 a b) ((contrEquiv1 dot_S64x1024_S64x2048_S1024x2048_0_0_1_1_n_n 64 rfl rfl).symm k) = ix2 k b := funext fun ax => Fin.ext (by
    match ax with
    | ⟨0, _⟩ => exact (logitDot_rhs_0 _ _).trans hk
    | ⟨1, _⟩ => exact logitDot_rhs_1 _ _)
  rw [el, er]

theorem valueDot_lhs_0 (i : S1024x72.Idx) (q : dot_S1024x2048_S2048x72_S1024x72_1_0_0_1_n_n.contr.Idx) :
    (dot_S1024x2048_S2048x72_S1024x72_1_0_0_1_n_n.lhsIdx i q 0).val = (i 0).val := by
  unfold DotDims.lhsIdx
  rw [dif_neg (show ¬(0 : Fin S1024x2048.rank) ∈ dot_S1024x2048_S2048x72_S1024x72_1_0_0_1_n_n.lhsBatch by decide), dif_pos (show (0 : Fin S1024x2048.rank) ∈ dot_S1024x2048_S2048x72_S1024x72_1_0_0_1_n_n.lhsNonContracting by decide)]
  rfl
theorem valueDot_lhs_1 (i : S1024x72.Idx) (q : dot_S1024x2048_S2048x72_S1024x72_1_0_0_1_n_n.contr.Idx) :
    (dot_S1024x2048_S2048x72_S1024x72_1_0_0_1_n_n.lhsIdx i q 1).val = (q ⟨0, by decide⟩).val :=
  dot_S1024x2048_S2048x72_S1024x72_1_0_0_1_n_n.lhsIdx_val_of_single rfl i q
theorem valueDot_rhs_0 (i : S1024x72.Idx) (q : dot_S1024x2048_S2048x72_S1024x72_1_0_0_1_n_n.contr.Idx) :
    (dot_S1024x2048_S2048x72_S1024x72_1_0_0_1_n_n.rhsIdx i q 0).val = (q ⟨0, by decide⟩).val :=
  dot_S1024x2048_S2048x72_S1024x72_1_0_0_1_n_n.rhsIdx_val_of_single rfl i q
theorem valueDot_rhs_1 (i : S1024x72.Idx) (q : dot_S1024x2048_S2048x72_S1024x72_1_0_0_1_n_n.contr.Idx) :
    (dot_S1024x2048_S2048x72_S1024x72_1_0_0_1_n_n.rhsIdx i q 1).val = (i 1).val := by
  unfold DotDims.rhsIdx
  rw [dif_neg (show ¬(1 : Fin S2048x72.rank) ∈ dot_S1024x2048_S2048x72_S1024x72_1_0_0_1_n_n.rhsBatch by decide), dif_pos (show (1 : Fin S2048x72.rank) ∈ dot_S1024x2048_S2048x72_S1024x72_1_0_0_1_n_n.rhsNonContracting by decide)]
  rfl
/-- The weighted values of a row tile: entry (t, c) is Σ_s weight(t, s) · value(s, c). -/
theorem valueDot {φ₁ φ₂ : FTy} (l : FVec Ideal S1024x2048 φ₁) (r : FVec Ideal S2048x72 φ₂) (a : Fin 1024) (b : Fin 72) :
    matmul dot_S1024x2048_S2048x72_S1024x72_1_0_0_1_n_n none l r (constant S1024x72 .f32 0x00000000#32) (ix2 a b)
      = ∑ k : Fin 2048, l (ix2 a k) * r (ix2 k b) := by
  show FloatOps.matmul _ _ _ _ _ _ = _
  rw [Ideal.matmul_constant_zero_apply, ← Equiv.sum_comp (contrEquiv1 dot_S1024x2048_S2048x72_S1024x72_1_0_0_1_n_n 2048 rfl rfl).symm]
  refine Finset.sum_congr rfl fun k _ => ?_
  have hk := contrEquiv1_symm_val dot_S1024x2048_S2048x72_S1024x72_1_0_0_1_n_n 2048 rfl rfl k
  have el : dot_S1024x2048_S2048x72_S1024x72_1_0_0_1_n_n.lhsIdx (ix2 a b) ((contrEquiv1 dot_S1024x2048_S2048x72_S1024x72_1_0_0_1_n_n 2048 rfl rfl).symm k) = ix2 a k := funext fun ax => Fin.ext (by
    match ax with
    | ⟨0, _⟩ => exact valueDot_lhs_0 _ _
    | ⟨1, _⟩ => exact (valueDot_lhs_1 _ _).trans hk)
  have er : dot_S1024x2048_S2048x72_S1024x72_1_0_0_1_n_n.rhsIdx (ix2 a b) ((contrEquiv1 dot_S1024x2048_S2048x72_S1024x72_1_0_0_1_n_n 2048 rfl rfl).symm k) = ix2 k b := funext fun ax => Fin.ext (by
    match ax with
    | ⟨0, _⟩ => exact (valueDot_rhs_0 _ _).trans hk
    | ⟨1, _⟩ => exact valueDot_rhs_1 _ _)
  rw [el, er]

/-- A column kept as an a × 1 matrix and spread over a × b reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The values extended on the right: left of column 64 the extended matrix is the transposed values. -/
theorem augLeft_apply {α : Type} (x₁ : S2048x64.Idx → α) (x₂ : S2048x8.Idx → α)
    (h : Shape.Concatenates [S2048x64, S2048x8] S2048x72 1) (s : Fin 2048) (c' : Fin 72) (c : Fin 64) (hc : c.val = c'.val) :
    concatenate S2048x72 1 [⟨S2048x64, x₁⟩, ⟨S2048x8, x₂⟩] h (ix2 s c') = x₁ (ix2 s c) :=
  concatenate_pair_apply_left 1 x₁ x₂ h (ix2 s c') rfl (ix2 s c) fun b => by
    match b with
    | ⟨0, _⟩ => rfl
    | ⟨1, _⟩ => exact hc

/-- From column 64 on it is the block of ones (whatever that block holds at the shifted column). -/
theorem augRight_apply {α : Type} (x₁ : S2048x64.Idx → α) (x₂ : S2048x8.Idx → α)
    (h : Shape.Concatenates [S2048x64, S2048x8] S2048x72 1) (s : Fin 2048) (c' : Fin 72) (u : Fin 8) (hu : u.val + 64 = c'.val) :
    concatenate S2048x72 1 [⟨S2048x64, x₁⟩, ⟨S2048x8, x₂⟩] h (ix2 s c') = x₂ (ix2 s u) :=
  concatenate_pair_apply_right 1 x₁ x₂ h (ix2 s c') rfl rfl (ix2 s u) (fun b hb => by
    match b with
    | ⟨0, _⟩ => rfl
    | ⟨1, _⟩ => exact absurd rfl hb) hu

/-- Two row tiles stacked: the upper tile above row 1024. -/
theorem tilesTop_apply {α : Type} (x₁ x₂ : S1024x72.Idx → α)
    (h : Shape.Concatenates [S1024x72, S1024x72] S2048x72 0) (t : Fin 2048) (c' : Fin 72) (t' : Fin 1024) (ht : t'.val = t.val) :
    concatenate S2048x72 0 [⟨S1024x72, x₁⟩, ⟨S1024x72, x₂⟩] h (ix2 t c') = x₁ (ix2 t' c') :=
  concatenate_pair_apply_left 0 x₁ x₂ h (ix2 t c') rfl (ix2 t' c') fun b => by
    match b with
    | ⟨0, _⟩ => exact ht
    | ⟨1, _⟩ => rfl

/-- The lower tile from row 1024 on. -/
theorem tilesBottom_apply {α : Type} (x₁ x₂ : S1024x72.Idx → α)
    (h : Shape.Concatenates [S1024x72, S1024x72] S2048x72 0) (t : Fin 2048) (c' : Fin 72) (t' : Fin 1024) (ht : t'.val + 1024 = t.val) :
    concatenate S2048x72 0 [⟨S1024x72, x₁⟩, ⟨S1024x72, x₂⟩] h (ix2 t c') = x₂ (ix2 t' c') :=
  concatenate_pair_apply_right 0 x₁ x₂ h (ix2 t c') rfl rfl (ix2 t' c') (fun b hb => by
    match b with
    | ⟨0, _⟩ => exact absurd rfl hb
    | ⟨1, _⟩ => rfl) ht

end Cert.KernelIdeal.Ops

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.LibSoftmax.lean ====
/-
  A general lemma file (no program): one attention head over the extended reals, in the two arrangements the programs compute, and the law that joins them.

  Fix a head with C channels and T positions: queries q, keys k and values v, each a C × T table. The logit of a query
  position t against a key position s is L t s = Σ_d q d t · k d s.

  * The streaming arrangement divides once: out c t = (Σ_s e^{L t s} · v c s) / (Σ_s e^{L t s} · 1).
  * The softmax arrangement normalises the weights first: with M t the largest logit of row t,
    out c t = Σ_s v c s · (e^{L t s − M t} / (0 + Σ_s' e^{L t s' − M t})).

  When every entry of q, k and v is a real number the two agree: e^{L − M} = e^{L} / e^{M}, the common factor 1 / e^{M}
  cancels between a weight's numerator and denominator, and a division by the (positive, real) total commutes with the
  finite sum. At an infinite entry none of these steps is available, which is why the law is stated for real entries.
-/
import Idealize.ShloMosaic.PureOps.Ideal
import Idealize.ShloMosaic.PureOps.Ideal.Laws
import proofs.«133506_g25683904430144_cont_9to1_844_27_alg».proof.Proof.LibFinite

noncomputable section

namespace Cert.Attn

open Idealize.ShloMosaic Cert.Lib.Finite

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logit of query position `t` against key position `s`. -/
def logit {C T : ℕ} (q k : Fin C → Fin T → EReal) (t s : Fin T) : EReal := ∑ d : Fin C, q d t * k d s

/-- The streaming arrangement: one division of two exponential sums (`one` is the entry of the column of ones the
    values are extended by). -/
def headStream {C T : ℕ} (one : EReal) (q k v : Fin C → Fin T → EReal) (c : Fin C) (t : Fin T) : EReal :=
  Ideal.div (∑ s : Fin T, Ideal.exp (logit q k t s) * v c s) (∑ s : Fin T, Ideal.exp (logit q k t s) * one)

/-- The largest logit of row `t`, as the softmax computes it: the fold of `max` from `ninf`, then once more against `ninf`. -/
def rowMax {C T : ℕ} (ninf : EReal) (q k : Fin C → Fin T → EReal) (t : Fin T) : EReal :=
  max ninf ((Finset.univ : Finset (Fin T)).fold max ninf (fun s => logit q k t s))

/-- The softmax arrangement: normalised weights, then the weighted sum of the values. -/
def headSoftmax {C T : ℕ} (zero ninf : EReal) (q k v : Fin C → Fin T → EReal) (c : Fin C) (t : Fin T) : EReal :=
  ∑ s : Fin T, v c s * Ideal.div (Ideal.exp (logit q k t s - rowMax ninf q k t))
    (zero + ∑ s' : Fin T, Ideal.exp (logit q k t s' - rowMax ninf q k t))

/-- A fold of `max` from `⊥` over real entries is `⊥` on the empty set and real otherwise. -/
theorem fold_max_bot {ι : Type} (s : Finset ι) (f : ι → EReal) (hf : ∀ i, IsReal (f i)) :
    (s = ∅ ∧ s.fold max ⊥ f = ⊥) ∨ IsReal (s.fold max ⊥ f) := by
  classical
  induction s using Finset.induction_on with
  | empty => exact Or.inl ⟨rfl, rfl⟩
  | insert a s ha ih =>
    right
    rw [Finset.fold_insert ha]
    rcases ih with ⟨_, h⟩ | h
    · rw [h, max_eq_left bot_le]; exact hf a
    · exact Cert.Lib.Finite.max (hf a) h

/-- The law over the reals, one row: with logits `ℓ`, values `w` and any real shift `μ`. -/
theorem row_law {T : ℕ} (hT : 0 < T) (ℓ w : Fin T → ℝ) (μ : ℝ) :
    (∑ s : Fin T, w s * (Real.exp (ℓ s - μ) * (1 / ∑ s' : Fin T, Real.exp (ℓ s' - μ))))
      = (∑ s : Fin T, Real.exp (ℓ s) * w s) * (1 / ∑ s : Fin T, Real.exp (ℓ s)) := by
  have hne : (Finset.univ : Finset (Fin T)).Nonempty := ⟨⟨0, hT⟩, Finset.mem_univ _⟩
  have hD : (0 : ℝ) < ∑ s : Fin T, Real.exp (ℓ s) := Finset.sum_pos (fun _ _ => Real.exp_pos _) hne
  have hE : (0 : ℝ) < Real.exp μ := Real.exp_pos μ
  have hA : (∑ s' : Fin T, Real.exp (ℓ s' - μ)) = (∑ s : Fin T, Real.exp (ℓ s)) / Real.exp μ := by
    calc (∑ s' : Fin T, Real.exp (ℓ s' - μ)) = ∑ s' : Fin T, Real.exp (ℓ s') / Real.exp μ :=
          Finset.sum_congr rfl fun s _ => Real.exp_sub _ _
      _ = (∑ s : Fin T, Real.exp (ℓ s)) / Real.exp μ := (Finset.sum_div _ _ _).symm
  rw [hA, Finset.sum_mul]
  refine Finset.sum_congr rfl fun s _ => ?_
  rw [Real.exp_sub]
  field_simp

/-- The same row over the extended reals, at real entries. -/
theorem row_law_ereal {T : ℕ} (hT : 0 < T) (ℓ w : Fin T → ℝ) (μ : ℝ) :
    (∑ s : Fin T, (w s : EReal) * Ideal.div (Ideal.exp ((ℓ s : EReal) - (μ : EReal)))
        (0 + ∑ s' : Fin T, Ideal.exp ((ℓ s' : EReal) - (μ : EReal))))
      = Ideal.div (∑ s : Fin T, Ideal.exp (ℓ s : EReal) * (w s : EReal)) (∑ s : Fin T, Ideal.exp (ℓ s : EReal) * 1) := by
  have hne : (Finset.univ : Finset (Fin T)).Nonempty := ⟨⟨0, hT⟩, Finset.mem_univ _⟩
  have hA : (0 : ℝ) < ∑ s' : Fin T, Real.exp (ℓ s' - μ) := Finset.sum_pos (fun _ _ => Real.exp_pos _) hne
  have hD : (0 : ℝ) < ∑ s : Fin T, Real.exp (ℓ s) := Finset.sum_pos (fun _ _ => Real.exp_pos _) hne
  have e1 : ∀ s : Fin T, Ideal.exp ((ℓ s : EReal) - (μ : EReal)) = ((Real.exp (ℓ s - μ) : ℝ) : EReal) := fun s => by
    rw [← EReal.coe_sub]; rfl
  have e2 : ∀ s : Fin T, Ideal.exp (ℓ s : EReal) = ((Real.exp (ℓ s) : ℝ) : EReal) := fun s => rfl
  have l1 : (0 + ∑ s' : Fin T, Ideal.exp ((ℓ s' : EReal) - (μ : EReal))) = ((∑ s' : Fin T, Real.exp (ℓ s' - μ) : ℝ) : EReal) := by
    rw [zero_add, coe_sum]; exact Finset.sum_congr rfl fun s _ => e1 s
  have l2 : (∑ s : Fin T, Ideal.exp (ℓ s : EReal) * 1) = ((∑ s : Fin T, Real.exp (ℓ s) : ℝ) : EReal) := by
    rw [coe_sum]; exact Finset.sum_congr rfl fun s _ => by rw [mul_one, e2]
  have l3 : (∑ s : Fin T, Ideal.exp (ℓ s : EReal) * (w s : EReal)) = ((∑ s : Fin T, Real.exp (ℓ s) * w s : ℝ) : EReal) := by
    rw [coe_sum]; exact Finset.sum_congr rfl fun s _ => by rw [e2, EReal.coe_mul]
  rw [l1, l2, l3, Ideal.div_coe hD.ne', ← EReal.coe_mul, ← row_law hT ℓ w μ,
    coe_sum _ (fun s => w s * (Real.exp (ℓ s - μ) * (1 / ∑ s' : Fin T, Real.exp (ℓ s' - μ))))]
  refine Finset.sum_congr rfl fun s _ => ?_
  rw [e1, Ideal.div_coe hA.ne', ← EReal.coe_mul, ← EReal.coe_mul]

/-- THE LAW: at real entries the softmax arrangement (from a zero total and a `⊥` starting maximum) is the streaming
    arrangement (over a column of ones). -/
theorem headSoftmax_eq_headStream {C T : ℕ} (hT : 0 < T) (q k v : Fin C → Fin T → EReal)
    (hq : ∀ d t, IsReal (q d t)) (hk : ∀ d t, IsReal (k d t)) (hv : ∀ d t, IsReal (v d t)) (c : Fin C) (t : Fin T) :
    headSoftmax 0 ⊥ q k v c t = headStream 1 q k v c t := by
  have hL : ∀ s, IsReal (logit q k t s) := fun s =>
    Cert.Lib.Finite.sum _ _ fun d _ => Cert.Lib.Finite.mul (hq d t) (hk d s)
  choose ℓ hℓ using hL
  choose w hw using fun s => hv c s
  have hM : IsReal (rowMax ⊥ q k t) := by
    unfold rowMax
    rw [max_eq_right bot_le]
    rcases fold_max_bot (Finset.univ : Finset (Fin T)) (fun s => logit q k t s) (fun s => ⟨ℓ s, hℓ s⟩) with ⟨h, _⟩ | h
    · exact absurd h (Finset.univ_nonempty_iff.mpr ⟨⟨0, hT⟩⟩).ne_empty
    · exact h
  obtain ⟨μ, hμ⟩ := hM
  unfold headSoftmax headStream
  simp only [hμ, hℓ, hw]
  exact row_law_ereal hT ℓ w μ

end Cert.Attn

end
-- ==== Proof.Head.lean ====
/-
  One head of the kernel, from the blocks it loads, read at an index.

  A head loads its embeddings e (T × E), the shared projection W (3C × E) and its query, key and value rows (each C × T).
  Its null token is nul(o, t) = Σ_j W(o, j) · e(t, j); its tables are q(c, t) = (xq(c, t) + nul(c, t)) · κ,
  k(c, s) = (xk(c, s) + nul(C + c, s)) · κ and v(c, s) = xv(c, s) + nul(2C + c, s). The body extends the transposed values
  by a block of ones, multiplies e^{logits} into the extended values one row tile at a time, stacks the tiles, and
  divides the first C columns by the column of totals: entry (c, t) of what it stores is
  (Σ_s e^{L t s} · v(c, s)) / (Σ_s e^{L t s} · 1), the streaming arrangement of the head.
-/
import proofs.«133506_g25683904430144_cont_9to1_844_27_alg».proof.Proof.Gen.KernelIdeal.Skeleton
import proofs.«133506_g25683904430144_cont_9to1_844_27_alg».proof.Proof.KernelOps
import proofs.«133506_g25683904430144_cont_9to1_844_27_alg».proof.Proof.LibSoftmax

noncomputable section

namespace Cert.KernelIdeal.Head

open Idealize.ShloMosaic Idealize.ShloMosaic.ValueIdx Cert.KernelIdeal Cert.KernelIdeal.Gen Cert.KernelIdeal.Ops Cert.Attn

/-- The scale both programs multiply queries and keys by, as the exact value of its bit pattern. -/
abbrev scaleK : EReal := Ideal.ofBits .f32 0x3EB504F3#32
/-- The entry of the block of ones, as the exact value of its bit pattern. -/
abbrev oneK : EReal := Ideal.ofBits .f32 0x3F800000#32

/-- The null token of a head's block: entry (o, t) of W · eᵀ. -/
def nul (e : Vec Ideal S1x2048x128 .f32) (w : Vec Ideal S192x128 .f32) (o : Fin 192) (t : Fin 2048) : EReal :=
  ∑ j : Fin 128, w (ix2 o j) * e (ix3 (0 : Fin 1) t j)

/-- The head's scaled queries. -/
def qB (e : Vec Ideal S1x2048x128 .f32) (w : Vec Ideal S192x128 .f32) (x : Vec Ideal S1x64x2048 .f32) : Fin 64 → Fin 2048 → EReal :=
  fun c t => (x (ix3 (0 : Fin 1) c t) + nul e w ⟨c.val, by have := c.isLt; omega⟩ t) * scaleK
/-- The head's scaled keys. -/
def kB (e : Vec Ideal S1x2048x128 .f32) (w : Vec Ideal S192x128 .f32) (x : Vec Ideal S1x64x2048 .f32) : Fin 64 → Fin 2048 → EReal :=
  fun c s => (x (ix3 (0 : Fin 1) c s) + nul e w ⟨64 + c.val, by have := c.isLt; omega⟩ s) * scaleK
/-- The head's values. -/
def vB (e : Vec Ideal S1x2048x128 .f32) (w : Vec Ideal S192x128 .f32) (x : Vec Ideal S1x64x2048 .f32) : Fin 64 → Fin 2048 → EReal :=
  fun c s => x (ix3 (0 : Fin 1) c s) + nul e w ⟨128 + c.val, by have := c.isLt; omega⟩ s

/-- The projection of the block's embeddings, at (o, t). -/
theorem proj_apply (e : Vec Ideal S1x2048x128 .f32) (w : Vec Ideal S192x128 .f32) (hE : S1x2048x128.ShapeCasts S2048x128)
    (o : Fin 192) (t : Fin 2048) : (matmul (φ₁ := .f32) (φ₂ := .f32) dot_S192x128_S2048x128_S192x2048_1_1_0_0_n_n none w (shapeCast S2048x128 e hE) (constant (F := Ideal) S192x2048 .f32 0x00000000#32)) (ix2 o t) = nul e w o t := by
  rw [projDot]
  exact Finset.sum_congr rfl fun k _ => by rw [shapeCast_1ab_ab_apply]

/-- Rows `o …` of a 3C × T table added to a loaded C × T block and scaled, at (c, t). -/
theorem scaled_apply (x : Vec Ideal S1x64x2048 .f32) (X3 : FVec Ideal S192x2048 .f32) (o : ℕ) (hX : S1x64x2048.ShapeCasts S64x2048)
    (h2 : S192x2048.Slices ![o, 0] S64x2048) (c : Fin 64) (t : Fin 2048) (k : Fin 192) (hk : k.val = o + c.val) :
    (mulf (addf (shapeCast S64x2048 x hX) (extractStridedSlice S64x2048 ![o, 0] X3 h2)) (broadcast S64x2048 (Scalar.ofBits (F := Ideal) .f32 0x3EB504F3#32))) (ix2 c t)
      = (x (ix3 (0 : Fin 1) c t) + X3 (ix2 k t)) * scaleK := by
  show (shapeCast S64x2048 x hX (ix2 c t) + extractStridedSlice S64x2048 ![o, 0] X3 h2 (ix2 c t)) * _ = _
  rw [shapeCast_1ab_ab_apply, slice2_axis0_apply o X3 h2 c t k hk]
  rfl

/-- The same without the scale. -/
theorem shifted_apply (x : Vec Ideal S1x64x2048 .f32) (X3 : FVec Ideal S192x2048 .f32) (o : ℕ) (hX : S1x64x2048.ShapeCasts S64x2048)
    (h2 : S192x2048.Slices ![o, 0] S64x2048) (c : Fin 64) (t : Fin 2048) (k : Fin 192) (hk : k.val = o + c.val) :
    (addf (shapeCast S64x2048 x hX) (extractStridedSlice S64x2048 ![o, 0] X3 h2)) (ix2 c t)
      = x (ix3 (0 : Fin 1) c t) + X3 (ix2 k t) := by
  show shapeCast S64x2048 x hX (ix2 c t) + extractStridedSlice S64x2048 ![o, 0] X3 h2 (ix2 c t) = _
  rw [shapeCast_1ab_ab_apply, slice2_axis0_apply o X3 h2 c t k hk]

/-- The extended values left of column 64: the values, transposed. -/
theorem vaug_left (V : FVec Ideal S64x2048 .f32) (hT : S64x2048.Transposes [1, 0] S2048x64)
    (hC1 : Shape.Concatenates [S2048x64, S2048x8] S2048x72 1) (hB : FTy.bits .bf16 < FTy.bits .f32) (s : Fin 2048) (c : Fin 64) (c' : Fin 72) (hc : c.val = c'.val) :
    (truncf .bf16 (concatenate S2048x72 1 [⟨S2048x64, transpose S2048x64 [1, 0] V hT⟩, ⟨S2048x8, broadcast S2048x8 (Scalar.ofBits (F := Ideal) .f32 0x3F800000#32)⟩] hC1) hB) (ix2 s c')
      = V (ix2 c s) := by
  rw [truncf_apply, augLeft_apply _ _ hC1 s c' c hc, transpose_ix2_apply]

/-- The extended values at column 64: one. -/
theorem vaug_ones (V : FVec Ideal S64x2048 .f32) (hT : S64x2048.Transposes [1, 0] S2048x64)
    (hC1 : Shape.Concatenates [S2048x64, S2048x8] S2048x72 1) (hB : FTy.bits .bf16 < FTy.bits .f32) (s : Fin 2048) (c' : Fin 72) (hc : c'.val = 64) :
    (truncf .bf16 (concatenate S2048x72 1 [⟨S2048x64, transpose S2048x64 [1, 0] V hT⟩, ⟨S2048x8, broadcast S2048x8 (Scalar.ofBits (F := Ideal) .f32 0x3F800000#32)⟩] hC1) hB) (ix2 s c')
      = oneK := by
  rw [truncf_apply, augRight_apply _ _ hC1 s c' (0 : Fin 8) (by show 0 + 64 = c'.val; omega)]
  rfl

/-- One row tile of e^{logits} times the extended values: at local row t' (global row t = off + t') and column c'. -/
theorem tile_apply (Q K : FVec Ideal S64x2048 .f32) (VA : FVec Ideal S2048x72 .bf16) (off : ℕ) (hS : S64x2048.Slices ![0, off] S64x1024)
    (hB : FTy.bits .bf16 < FTy.bits .f32) (t' : Fin 1024) (c' : Fin 72) (t : Fin 2048) (ht : t.val = off + t'.val) :
    (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, off] Q hS) K (constant (F := Ideal) S1024x2048 .f32 0x00000000#32))) hB) VA (constant (F := Ideal) S1024x72 .f32 0x00000000#32)) (ix2 t' c')
      = ∑ s : Fin 2048, Ideal.exp (∑ d : Fin 64, Q (ix2 d t) * K (ix2 d s)) * VA (ix2 s c') := by
  rw [valueDot]
  refine Finset.sum_congr rfl fun s _ => ?_
  rw [truncf_apply]
  show Ideal.exp (matmul (φ₁ := .f32) (φ₂ := .f32) dot_S64x1024_S64x2048_S1024x2048_0_0_1_1_n_n none (extractStridedSlice S64x1024 ![0, off] Q hS) K (constant (F := Ideal) S1024x2048 .f32 0x00000000#32) (ix2 t' s)) * _ = _
  rw [logitDot]
  refine congrArg (fun z => Ideal.exp z * VA (ix2 s c')) (Finset.sum_congr rfl fun d _ => ?_)
  rw [slice2_axis1_apply off Q hS d t' t ht]

/-- The two tiles stacked: every row t is the same expression. -/
theorem aug_apply (Q K : FVec Ideal S64x2048 .f32) (VA : FVec Ideal S2048x72 .bf16) (hS0 : S64x2048.Slices ![0, 0] S64x1024)
    (hS1 : S64x2048.Slices ![0, 1024] S64x1024) (hB : FTy.bits .bf16 < FTy.bits .f32)
    (hC0 : Shape.Concatenates [S1024x72, S1024x72] S2048x72 0) (t : Fin 2048) (c' : Fin 72) :
    (concatenate S2048x72 0 [⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 0] Q hS0) K (constant (F := Ideal) S1024x2048 .f32 0x00000000#32))) hB) VA (constant (F := Ideal) S1024x72 .f32 0x00000000#32))⟩, ⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 1024] Q hS1) K (constant (F := Ideal) S1024x2048 .f32 0x00000000#32))) hB) VA (constant (F := Ideal) S1024x72 .f32 0x00000000#32))⟩] hC0) (ix2 t c')
      = ∑ s : Fin 2048, Ideal.exp (∑ d : Fin 64, Q (ix2 d t) * K (ix2 d s)) * VA (ix2 s c') := by
  have htl : t.val < 2048 := t.isLt
  by_cases h : t.val < 1024
  · rw [tilesTop_apply _ _ hC0 t c' ⟨t.val, h⟩ rfl]
    exact tile_apply Q K VA 0 hS0 hB ⟨t.val, h⟩ c' t (Nat.zero_add _).symm
  · rw [tilesBottom_apply _ _ hC0 t c' ⟨t.val - 1024, by omega⟩ (by show t.val - 1024 + 1024 = t.val; omega)]
    exact tile_apply Q K VA 1024 hS1 hB ⟨t.val - 1024, by omega⟩ c' t (by show t.val = 1024 + (t.val - 1024); omega)

/-- The division by the column of totals, the transposition back and the unit axis: at (0, c, t). -/
theorem out_apply (AUG : FVec Ideal S2048x72 .f32) (hA : S2048x72.Slices ![0, 0] S2048x64) (hA1 : S2048x72.Slices ![0, 64] S2048x1)
    (hBc : S2048x1.Broadcasts S2048x64) (hT2 : S2048x64.Transposes [1, 0] S64x2048) (hSC : S64x2048.ShapeCasts S1x64x2048)
    (u : Fin 1) (c : Fin 64) (t : Fin 2048) :
    (shapeCast S1x64x2048 (transpose S64x2048 [1, 0] (divf (extractStridedSlice S2048x64 ![0, 0] AUG hA) (broadcastTo S2048x64 (extractStridedSlice S2048x1 ![0, 64] AUG hA1) hBc)) hT2) hSC) (ix3 u c t)
      = Ideal.div (AUG (ix2 t ⟨c.val, by have := c.isLt; omega⟩)) (AUG (ix2 t ⟨64, by omega⟩)) := by
  rw [shapeCast_ab_1ab_apply, transpose_ix2_apply, divf_apply, broadcastTo_a1_ab_apply,
    slice2_axis1_apply 0 AUG hA t c ⟨c.val, by have := c.isLt; omega⟩ (Nat.zero_add _).symm,
    slice2_axis1_apply 64 AUG hA1 t (0 : Fin 1) ⟨64, by omega⟩ rfl]

/-- ONE HEAD: the whole chain from the loaded blocks to the stored block is the streaming arrangement of the head's
    tables. -/
theorem head_core (e : Vec Ideal S1x2048x128 .f32) (w : Vec Ideal S192x128 .f32) (xq xk xv : Vec Ideal S1x64x2048 .f32)
    (hE : S1x2048x128.ShapeCasts S2048x128) (hX : S1x64x2048.ShapeCasts S64x2048)
    (hs0 : S192x2048.Slices ![0, 0] S64x2048) (hs64 : S192x2048.Slices ![64, 0] S64x2048) (hs128 : S192x2048.Slices ![128, 0] S64x2048)
    (hT : S64x2048.Transposes [1, 0] S2048x64) (hC1 : Shape.Concatenates [S2048x64, S2048x8] S2048x72 1) (hB : FTy.bits .bf16 < FTy.bits .f32)
    (hS0 : S64x2048.Slices ![0, 0] S64x1024) (hS1 : S64x2048.Slices ![0, 1024] S64x1024)
    (hC0 : Shape.Concatenates [S1024x72, S1024x72] S2048x72 0) (hA : S2048x72.Slices ![0, 0] S2048x64) (hA1 : S2048x72.Slices ![0, 64] S2048x1)
    (hBc : S2048x1.Broadcasts S2048x64) (hT2 : S2048x64.Transposes [1, 0] S64x2048) (hSC : S64x2048.ShapeCasts S1x64x2048)
    (u : Fin 1) (c : Fin 64) (t : Fin 2048) :
    (shapeCast S1x64x2048 (transpose S64x2048 [1, 0] (divf (extractStridedSlice S2048x64 ![0, 0] (concatenate S2048x72 0 [⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 0] (mulf (addf (shapeCast S64x2048 xq hX) (extractStridedSlice S64x2048 ![0, 0] (matmul (φ₁ := .f32) (φ₂ := .f32) dot_S192x128_S2048x128_S192x2048_1_1_0_0_n_n none w (shapeCast S2048x128 e hE) (constant (F := Ideal) S192x2048 .f32 0x00000000#32)) hs0)) (broadcast S64x2048 (Scalar.ofBits (F := Ideal) .f32 0x3EB504F3#32))) hS0) (mulf (addf (shapeCast S64x2048 xk hX) (extractStridedSlice S64x2048 ![64, 0] (matmul (φ₁ := .f32) (φ₂ := .f32) dot_S192x128_S2048x128_S192x2048_1_1_0_0_n_n none w (shapeCast S2048x128 e hE) (constant (F := Ideal) S192x2048 .f32 0x00000000#32)) hs64)) (broadcast S64x2048 (Scalar.ofBits (F := Ideal) .f32 0x3EB504F3#32))) (constant (F := Ideal) S1024x2048 .f32 0x00000000#32))) hB) (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (constant (F := Ideal) S1024x72 .f32 0x00000000#32))⟩, ⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 1024] (mulf (addf (shapeCast S64x2048 xq hX) (extractStridedSlice S64x2048 ![0, 0] (matmul (φ₁ := .f32) (φ₂ := .f32) dot_S192x128_S2048x128_S192x2048_1_1_0_0_n_n none w (shapeCast S2048x128 e hE) (constant (F := Ideal) S192x2048 .f32 0x00000000#32)) hs0)) (broadcast S64x2048 (Scalar.ofBits (F := Ideal) .f32 0x3EB504F3#32))) hS1) (mulf (addf (shapeCast S64x2048 xk hX) (extractStridedSlice S64x2048 ![64, 0] (matmul (φ₁ := .f32) (φ₂ := .f32) dot_S192x128_S2048x128_S192x2048_1_1_0_0_n_n none w (shapeCast S2048x128 e hE) (constant (F := Ideal) S192x2048 .f32 0x00000000#32)) hs64)) (broadcast S64x2048 (Scalar.ofBits (F := Ideal) .f32 0x3EB504F3#32))) (constant (F := Ideal) S1024x2048 .f32 0x00000000#32))) hB) (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (constant (F := Ideal) S1024x72 .f32 0x00000000#32))⟩] hC0) hA) (broadcastTo S2048x64 (extractStridedSlice S2048x1 ![0, 64] (concatenate S2048x72 0 [⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 0] (mulf (addf (shapeCast S64x2048 xq hX) (extractStridedSlice S64x2048 ![0, 0] (matmul (φ₁ := .f32) (φ₂ := .f32) dot_S192x128_S2048x128_S192x2048_1_1_0_0_n_n none w (shapeCast S2048x128 e hE) (constant (F := Ideal) S192x2048 .f32 0x00000000#32)) hs0)) (broadcast S64x2048 (Scalar.ofBits (F := Ideal) .f32 0x3EB504F3#32))) hS0) (mulf (addf (shapeCast S64x2048 xk hX) (extractStridedSlice S64x2048 ![64, 0] (matmul (φ₁ := .f32) (φ₂ := .f32) dot_S192x128_S2048x128_S192x2048_1_1_0_0_n_n none w (shapeCast S2048x128 e hE) (constant (F := Ideal) S192x2048 .f32 0x00000000#32)) hs64)) (broadcast S64x2048 (Scalar.ofBits (F := Ideal) .f32 0x3EB504F3#32))) (constant (F := Ideal) S1024x2048 .f32 0x00000000#32))) hB) (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (constant (F := Ideal) S1024x72 .f32 0x00000000#32))⟩, ⟨S1024x72, (matmul (φ₁ := .bf16) (φ₂ := .bf16) dot_S1024x2048_S2048x72_S1024x72_1_0_0_1_n_n none (truncf .bf16 (exp (matmul (φ₁ := .f32) (φ₂ := .f32) dot_S64x1024_S64x2048_S1024x2048_0_0_1_1_n_n none (extractStridedSlice S64x1024 ![0, 1024] (mulf (addf (shapeCast S64x2048 xq hX) (extractStridedSlice S64x2048 ![0, 0] (matmul (φ₁ := .f32) (φ₂ := .f32) dot_S192x128_S2048x128_S192x2048_1_1_0_0_n_n none w (shapeCast S2048x128 e hE) (constant (F := Ideal) S192x2048 .f32 0x00000000#32)) hs0)) (broadcast S64x2048 (Scalar.ofBits (F := Ideal) .f32 0x3EB504F3#32))) hS1) (mulf (addf (shapeCast S64x2048 xk hX) (extractStridedSlice S64x2048 ![64, 0] (matmul (φ₁ := .f32) (φ₂ := .f32) dot_S192x128_S2048x128_S192x2048_1_1_0_0_n_n none w (shapeCast S2048x128 e hE) (constant (F := Ideal) S192x2048 .f32 0x00000000#32)) hs64)) (broadcast S64x2048 (Scalar.ofBits (F := Ideal) .f32 0x3EB504F3#32))) (constant (F := Ideal) S1024x2048 .f32 0x00000000#32))) hB) (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (constant (F := Ideal) S1024x72 .f32 0x00000000#32))⟩] hC0) hA1) hBc)) hT2) hSC) (ix3 u c t)
      = headStream oneK (qB e w xq) (kB e w xk) (vB e w xv) c t := by
  rw [out_apply, aug_apply, aug_apply]
  unfold headStream logit
  have hq : ∀ (d : Fin 64) (r : Fin 2048), (mulf (addf (shapeCast S64x2048 xq hX) (extractStridedSlice S64x2048 ![0, 0] (matmul (φ₁ := .f32) (φ₂ := .f32) dot_S192x128_S2048x128_S192x2048_1_1_0_0_n_n none w (shapeCast S2048x128 e hE) (constant (F := Ideal) S192x2048 .f32 0x00000000#32)) hs0)) (broadcast S64x2048 (Scalar.ofBits (F := Ideal) .f32 0x3EB504F3#32))) (ix2 d r) = qB e w xq d r := fun d r => by
    rw [scaled_apply xq _ 0 hX hs0 d r ⟨d.val, by have := d.isLt; omega⟩ (Nat.zero_add _).symm, proj_apply]; rfl
  have hk : ∀ (d : Fin 64) (r : Fin 2048), (mulf (addf (shapeCast S64x2048 xk hX) (extractStridedSlice S64x2048 ![64, 0] (matmul (φ₁ := .f32) (φ₂ := .f32) dot_S192x128_S2048x128_S192x2048_1_1_0_0_n_n none w (shapeCast S2048x128 e hE) (constant (F := Ideal) S192x2048 .f32 0x00000000#32)) hs64)) (broadcast S64x2048 (Scalar.ofBits (F := Ideal) .f32 0x3EB504F3#32))) (ix2 d r) = kB e w xk d r := fun d r => by
    rw [scaled_apply xk _ 64 hX hs64 d r ⟨64 + d.val, by have := d.isLt; omega⟩ rfl, proj_apply]; rfl
  have hv : ∀ (r : Fin 2048), (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (ix2 r ⟨c.val, by have := c.isLt; omega⟩) = vB e w xv c r := fun r => by
    rw [vaug_left _ hT hC1 hB r c _ rfl, shifted_apply xv _ 128 hX hs128 c r ⟨128 + c.val, by have := c.isLt; omega⟩ rfl, proj_apply]; rfl
  have ho : ∀ (r : Fin 2048), (truncf .bf16 (concatenate S2048x72 1 [⟨S2048x64, transpose S2048x64 [1, 0] (addf (shapeCast S64x2048 xv hX) (extractStridedSlice S64x2048 ![128, 0] (matmul (φ₁ := .f32) (φ₂ := .f32) dot_S192x128_S2048x128_S192x2048_1_1_0_0_n_n none w (shapeCast S2048x128 e hE) (constant (F := Ideal) S192x2048 .f32 0x00000000#32)) hs128)) hT⟩, ⟨S2048x8, broadcast S2048x8 (Scalar.ofBits (F := Ideal) .f32 0x3F800000#32)⟩] hC1) hB) (ix2 r ⟨64, by omega⟩) = oneK := fun r => vaug_ones _ hT hC1 hB r _ rfl
  simp only [hq, hk, hv, ho]

end Cert.KernelIdeal.Head

end
-- ==== Proof.HeadPayload.lean ====
/-
  The two stores of the body are two heads.

  The body's first store (rows 0 of the block) and its second (rows 1) hold, each, the streaming arrangement of the head
  whose blocks they load: the printed value of each store is, operation for operation, the chain of one head.
-/
import proofs.«133506_g25683904430144_cont_9to1_844_27_alg».proof.Proof.Head

noncomputable section

namespace Cert.KernelIdeal.Head

open Idealize.ShloMosaic Idealize.ShloMosaic.ValueIdx Cert.KernelIdeal Cert.KernelIdeal.Gen Cert.KernelIdeal.Ops Cert.Attn

/-- The first store's value. -/
theorem head0_apply (e : Vec Ideal S1x2048x128 .f32) (w : Vec Ideal S192x128 .f32) (xq xk xv : Vec Ideal S1x64x2048 .f32)
    (u : Fin 1) (c : Fin 64) (t : Fin 2048) :
    k0_pay5 (F := Ideal) (k0_pay3 e w xq xk xv) (k0_pay4 e w xq xk xv) (ix3 u c t)
      = headStream oneK (qB e w xq) (kB e w xk) (vB e w xv) c t :=
  head_core e w xq xk xv Facts₀.shapeCasts_S1x2048x128_S2048x128 Facts₀.shapeCasts_S1x64x2048_S64x2048 Facts₀.slices_S192x2048_o0_0_S64x2048 Facts₀.slices_S192x2048_o64_0_S64x2048 Facts₀.slices_S192x2048_o128_0_S64x2048 Facts₀.transposes_S64x2048_p1_0_S2048x64 Facts₀.concatenates_S2048x64_S2048x8_S2048x72_d1 Facts₀.bitsLt_bf16_f32 Facts₀.slices_S64x2048_o0_0_S64x1024 Facts₀.slices_S64x2048_o0_1024_S64x1024 Facts₀.concatenates_S1024x72_S1024x72_S2048x72_d0 Facts₀.slices_S2048x72_o0_0_S2048x64 Facts₀.slices_S2048x72_o0_64_S2048x1 Facts₀.broadcasts_S2048x1_S2048x64 Facts₀.transposes_S2048x64_p1_0_S64x2048 Facts₀.shapeCasts_S64x2048_S1x64x2048 u c t

/-- The second store's value. -/
theorem head1_apply (e : Vec Ideal S1x2048x128 .f32) (w : Vec Ideal S192x128 .f32) (xq xk xv : Vec Ideal S1x64x2048 .f32)
    (u : Fin 1) (c : Fin 64) (t : Fin 2048) :
    k0_pay1 (F := Ideal) (k0_pay8 e w xk) (k0_pay9 e w xv) (k0_pay10 e w xq xk xv) (k0_pay11 e w xq) (ix3 u c t)
      = headStream oneK (qB e w xq) (kB e w xk) (vB e w xv) c t :=
  head_core e w xq xk xv Facts₀.shapeCasts_S1x2048x128_S2048x128 Facts₀.shapeCasts_S1x64x2048_S64x2048 Facts₀.slices_S192x2048_o0_0_S64x2048 Facts₀.slices_S192x2048_o64_0_S64x2048 Facts₀.slices_S192x2048_o128_0_S64x2048 Facts₀.transposes_S64x2048_p1_0_S2048x64 Facts₀.concatenates_S2048x64_S2048x8_S2048x72_d1 Facts₀.bitsLt_bf16_f32 Facts₀.slices_S64x2048_o0_0_S64x1024 Facts₀.slices_S64x2048_o0_1024_S64x1024 Facts₀.concatenates_S1024x72_S1024x72_S2048x72_d0 Facts₀.slices_S2048x72_o0_0_S2048x64 Facts₀.slices_S2048x72_o0_64_S2048x1 Facts₀.broadcasts_S2048x1_S2048x64 Facts₀.transposes_S2048x64_p1_0_S64x2048 Facts₀.shapeCasts_S64x2048_S1x64x2048 u c t

end Cert.KernelIdeal.Head

end
-- ==== Proof.AttnSpec.lean ====
/-
  The attention block over whole arrays, at the exact values: the one function both programs compute.

  X is the 32 × 192 × 2048 stack of query, key and value rows of the 32 heads (rows 0–63, 64–127, 128–191 of a head),
  E the 32 × 2048 × 128 embeddings and W the shared 192 × 128 projection. Head b adds its null token
  nullTok(b, o, t) = Σ_j W(o, j) · E(b, t, j) to its rows, scales queries and keys by κ, and attends; `attnStream` is the
  arrangement with one division, `attnSoftmax` the one with normalised weights. At real entries they agree, by the
  law of one head.
-/
import proofs.«133506_g25683904430144_cont_9to1_844_27_alg».proof.Proof.LibSoftmax
import Idealize.ShloMosaic.Lib.ValueIdx

noncomputable section

namespace Cert.Attn

open Idealize.ShloMosaic Idealize.ShloMosaic.ValueIdx Cert.Lib.Finite

abbrev SX : Shape := ⟨3, ![32, 192, 2048]⟩
abbrev SE : Shape := ⟨3, ![32, 2048, 128]⟩
abbrev SW : Shape := ⟨2, ![192, 128]⟩
abbrev SO : Shape := ⟨3, ![32, 64, 2048]⟩

/-- The null token of head `b`: entry (o, t) of W · E(b)ᵀ. -/
def nullTok (E : SE.Idx → EReal) (W : SW.Idx → EReal) (b : Fin 32) (o : Fin 192) (t : Fin 2048) : EReal :=
  ∑ j : Fin 128, W (ix2 o j) * E (ix3 b t j)

/-- Head `b`'s scaled queries. -/
def qOf (κ : EReal) (X : SX.Idx → EReal) (E : SE.Idx → EReal) (W : SW.Idx → EReal) (b : Fin 32) : Fin 64 → Fin 2048 → EReal :=
  fun c t => (X (ix3 b ⟨c.val, by have := c.isLt; omega⟩ t) + nullTok E W b ⟨c.val, by have := c.isLt; omega⟩ t) * κ
/-- Head `b`'s scaled keys. -/
def kOf (κ : EReal) (X : SX.Idx → EReal) (E : SE.Idx → EReal) (W : SW.Idx → EReal) (b : Fin 32) : Fin 64 → Fin 2048 → EReal :=
  fun c s => (X (ix3 b ⟨64 + c.val, by have := c.isLt; omega⟩ s) + nullTok E W b ⟨64 + c.val, by have := c.isLt; omega⟩ s) * κ
/-- Head `b`'s values. -/
def vOf (X : SX.Idx → EReal) (E : SE.Idx → EReal) (W : SW.Idx → EReal) (b : Fin 32) : Fin 64 → Fin 2048 → EReal :=
  fun c s => X (ix3 b ⟨128 + c.val, by have := c.isLt; omega⟩ s) + nullTok E W b ⟨128 + c.val, by have := c.isLt; omega⟩ s

/-- All heads, one division each. -/
def attnStream (κ one : EReal) (X : SX.Idx → EReal) (E : SE.Idx → EReal) (W : SW.Idx → EReal) : SO.Idx → EReal :=
  fun i => headStream one (qOf κ X E W (i 0)) (kOf κ X E W (i 0)) (vOf X E W (i 0)) (i 1) (i 2)

/-- All heads, normalised weights. -/
def attnSoftmax (κ zero ninf : EReal) (X : SX.Idx → EReal) (E : SE.Idx → EReal) (W : SW.Idx → EReal) : SO.Idx → EReal :=
  fun i => headSoftmax zero ninf (qOf κ X E W (i 0)) (kOf κ X E W (i 0)) (vOf X E W (i 0)) (i 1) (i 2)

theorem nullTok_real (E : SE.Idx → EReal) (W : SW.Idx → EReal) (hE : ∀ i, IsReal (E i)) (hW : ∀ i, IsReal (W i))
    (b : Fin 32) (o : Fin 192) (t : Fin 2048) : IsReal (nullTok E W b o t) :=
  Cert.Lib.Finite.sum _ _ fun j _ => Cert.Lib.Finite.mul (hW _) (hE _)

/-- At real entries and a real scale the two arrangements are one function. -/
theorem attnSoftmax_eq_attnStream (κ : EReal) (hκ : IsReal κ) (X : SX.Idx → EReal) (E : SE.Idx → EReal) (W : SW.Idx → EReal)
    (hX : ∀ i, IsReal (X i)) (hE : ∀ i, IsReal (E i)) (hW : ∀ i, IsReal (W i)) :
    attnSoftmax κ 0 ⊥ X E W = attnStream κ 1 X E W := by
  funext i
  exact headSoftmax_eq_headStream (by decide) _ _ _
    (fun d t => Cert.Lib.Finite.mul (Cert.Lib.Finite.add (hX _) (nullTok_real E W hE hW _ _ _)) hκ)
    (fun d t => Cert.Lib.Finite.mul (Cert.Lib.Finite.add (hX _) (nullTok_real E W hE hW _ _ _)) hκ)
    (fun d t => Cert.Lib.Finite.add (hX _) (nullTok_real E W hE hW _ _ _)) (i 1) (i 2)

end Cert.Attn

end
-- ==== Proof.KernelBlock.lean ====
/-
  From the blocks the body stores to the array the kernel returns.

  Grid point p handles heads 2p and 2p + 1: its three input blocks are rows 2p, 2p + 1 of the reshaped first argument and
  of the embeddings, and the whole projection; its output block is rows 2p, 2p + 1 of the result. The body's two stores
  tile the output block, and each is one head (Head.lean), whose tables, read through the blocks, are the tables of that
  head in the whole arrays. So every block the pipeline writes back is the restriction of ONE function of the argument
  arrays, the blocks cover the result, and the result array is that function. The last host operation reshapes it.
-/
import proofs.«133506_g25683904430144_cont_9to1_844_27_alg».proof.Proof.Gen.KernelIdeal.Frame
import proofs.«133506_g25683904430144_cont_9to1_844_27_alg».proof.Proof.HeadPayload
import proofs.«133506_g25683904430144_cont_9to1_844_27_alg».proof.Proof.AttnSpec

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Head Cert.Attn

/-- A load through a unit rectangle of a rank-3 array, at an index: the array at the offset index. -/
theorem ld3_apply {Val : EltTy → Type} {el : EltTy} {n0 n1 n2 m1 m2 : ℕ} (x : (⟨3, ![n0, n1, n2]⟩ : Shape).Idx → Val el) (off : Fin 3 → ℕ)
    (inb : ∀ a, off a + (⟨3, ![1, m1, m2]⟩ : Shape).size a ≤ (⟨3, ![n0, n1, n2]⟩ : Shape).size a)
    (u : Fin 1) (a : Fin m1) (b : Fin m2) (k0 : Fin n0) (k1 : Fin n1) (k2 : Fin n2)
    (h0 : k0.val = off 0) (h1 : k1.val = off 1 + a.val) (h2 : k2.val = off 2 + b.val) :
    View.ld x (Rect.unit (s := ⟨3, ![n0, n1, n2]⟩) off (⟨3, ![1, m1, m2]⟩ : Shape).size inb) (ix3 u a b) = x (ix3 k0 k1 k2) := by
  show x ((Rect.unit (s := ⟨3, ![n0, n1, n2]⟩) off (⟨3, ![1, m1, m2]⟩ : Shape).size inb).emb (ix3 u a b)) = _
  refine congrArg x (funext fun ax => Fin.ext ?_)
  have hu : u.val = 0 := by omega
  match ax with
  | ⟨0, _⟩ => show off 0 + 1 * u.val = k0.val; omega
  | ⟨1, _⟩ => show off 1 + 1 * a.val = k1.val; omega
  | ⟨2, _⟩ => show off 2 + 1 * b.val = k2.val; omega

/-- A head's null token read through its blocks is that head's null token in the whole arrays. -/
theorem nul_eq (e : Vec Ideal S1x2048x128 .f32) (w : Vec Ideal S192x128 .f32) (E : SE.Idx → EReal) (W : SW.Idx → EReal) (b : Fin 32)
    (he : ∀ (t : Fin 2048) (j : Fin 128), e (ix3 (0 : Fin 1) t j) = E (ix3 b t j))
    (hw : ∀ (o : Fin 192) (j : Fin 128), w (ix2 o j) = W (ix2 o j)) (o : Fin 192) (t : Fin 2048) :
    nul e w o t = nullTok E W b o t := by
  unfold nul nullTok
  exact Finset.sum_congr rfl fun j _ => by rw [hw, he]

/-- A head's tables read through its blocks are that head's tables in the whole arrays. -/
theorem head_tables (e : Vec Ideal S1x2048x128 .f32) (w : Vec Ideal S192x128 .f32) (xq xk xv : Vec Ideal S1x64x2048 .f32)
    (X : SX.Idx → EReal) (E : SE.Idx → EReal) (W : SW.Idx → EReal) (b : Fin 32)
    (he : ∀ (t : Fin 2048) (j : Fin 128), e (ix3 (0 : Fin 1) t j) = E (ix3 b t j))
    (hw : ∀ (o : Fin 192) (j : Fin 128), w (ix2 o j) = W (ix2 o j))
    (hq : ∀ (c : Fin 64) (t : Fin 2048), xq (ix3 (0 : Fin 1) c t) = X (ix3 b ⟨c.val, by have := c.isLt; omega⟩ t))
    (hk : ∀ (c : Fin 64) (t : Fin 2048), xk (ix3 (0 : Fin 1) c t) = X (ix3 b ⟨64 + c.val, by have := c.isLt; omega⟩ t))
    (hv : ∀ (c : Fin 64) (t : Fin 2048), xv (ix3 (0 : Fin 1) c t) = X (ix3 b ⟨128 + c.val, by have := c.isLt; omega⟩ t))
    (c : Fin 64) (t : Fin 2048) :
    headStream oneK (qB e w xq) (kB e w xk) (vB e w xv) c t = attnStream scaleK oneK X E W (ix3 b c t) := by
  have hQ : qB e w xq = qOf scaleK X E W b := funext fun c => funext fun t => by
    unfold qB qOf; rw [hq, nul_eq e w E W b he hw]
  have hK : kB e w xk = kOf scaleK X E W b := funext fun c => funext fun t => by
    unfold kB kOf; rw [hk, nul_eq e w E W b he hw]
  have hV : vB e w xv = vOf X E W b := funext fun c => funext fun t => by
    unfold vB vOf; rw [hv, nul_eq e w E W b he hw]
  rw [hQ, hK, hV]
  rfl

/-- The index of the whole result that position `y` of grid point `p`'s output block is. -/
def blkIdx (p : ℕ) (y : S2x64x2048.Idx) : SO.Idx :=
  ix3 ⟨(2 * p + (y 0).val) % 32, Nat.mod_lt _ (by decide)⟩ (y 1) (y 2)

/-- THE BLOCK: if the three input blocks are rows 2p, 2p + 1 of X and E and the whole of W, the output block the body
    leaves is the attention of the whole arrays at the block's indices. -/
theorem block_eq (x0 : Vec Ideal S2x192x2048 .f32) (x1 : Vec Ideal S2x2048x128 .f32) (x2 : Vec Ideal S192x128 .f32)
    (X : SX.Idx → EReal) (E : SE.Idx → EReal) (W : SW.Idx → EReal) (p : ℕ) (hp : p < 16)
    (hx0 : ∀ (h : Fin 2) (r : Fin 192) (t : Fin 2048) (b : Fin 32), b.val = 2 * p + h.val → x0 (ix3 h r t) = X (ix3 b r t))
    (hx1 : ∀ (h : Fin 2) (t : Fin 2048) (j : Fin 128) (b : Fin 32), b.val = 2 * p + h.val → x1 (ix3 h t j) = E (ix3 b t j))
    (hx2 : ∀ (o : Fin 192) (j : Fin 128), x2 (ix2 o j) = W (ix2 o j)) (y : S2x64x2048.Idx) :
    out0_3 (F := Ideal) x0 x1 x2 y = attnStream scaleK oneK X E W (blkIdx p y) := by
  unfold out0_3
  refine View.canon_apply_of_pieces (Val := Elt Ideal) (S := S2x64x2048) (e := .f32) (fun y => attnStream scaleK oneK X E W (blkIdx p y)) _ ?_ y (cover0_3 _ _ y)
  intro pc hpc x
  simp only [List.mem_cons, List.mem_singleton, List.not_mem_nil, or_false] at hpc
  have hw : ∀ (o : Fin 192) (j : Fin 128), View.ld x2 r0_1 (ix2 o j) = W (ix2 o j) := fun o j => by
    rw [View.ld_unit_zero (S := S192x128) (funext fun a => by fin_cases a <;> rfl)]; exact hx2 o j
  rcases hpc with rfl | rfl
  · obtain ⟨u, c, t, rfl⟩ : ∃ (u : Fin 1) (c : Fin 64) (t : Fin 2048), x = ix3 u c t := ⟨x 0, x 1, x 2, eq_ix3 x⟩
    refine (head1_apply _ _ _ _ _ u c t).trans ?_
    have hb : 2 * p + 1 < 32 := by omega
    refine (head_tables _ _ _ _ _ X E W ⟨2 * p + 1, hb⟩ ?_ hw ?_ ?_ ?_ c t).trans ?_
    · intro t j
      exact (ld3_apply x1 _ _ 0 t j (1 : Fin 2) t j rfl (by show _ = 0 + _; omega) (by show _ = 0 + _; omega)).trans (hx1 1 t j _ rfl)
    · intro c t
      exact (ld3_apply x0 _ _ 0 c t (1 : Fin 2) ⟨c.val, by have := c.isLt; omega⟩ t rfl (by show c.val = 0 + c.val; omega) (by show _ = 0 + _; omega)).trans (hx0 1 _ t _ rfl)
    · intro c t
      exact (ld3_apply x0 _ _ 0 c t (1 : Fin 2) ⟨64 + c.val, by have := c.isLt; omega⟩ t rfl rfl (by show _ = 0 + _; omega)).trans (hx0 1 _ t _ rfl)
    · intro c t
      exact (ld3_apply x0 _ _ 0 c t (1 : Fin 2) ⟨128 + c.val, by have := c.isLt; omega⟩ t rfl rfl (by show _ = 0 + _; omega)).trans (hx0 1 _ t _ rfl)
    · unfold blkIdx
      refine congrArg (attnStream scaleK oneK X E W) (funext fun a => Fin.ext ?_)
      have hu : u.val = 0 := by omega
      match a with
      | ⟨0, _⟩ => show 2 * p + 1 = (2 * p + (1 + 1 * u.val)) % 32; omega
      | ⟨1, _⟩ => show c.val = 0 + 1 * c.val; omega
      | ⟨2, _⟩ => show t.val = 0 + 1 * t.val; omega
  · obtain ⟨u, c, t, rfl⟩ : ∃ (u : Fin 1) (c : Fin 64) (t : Fin 2048), x = ix3 u c t := ⟨x 0, x 1, x 2, eq_ix3 x⟩
    refine (head0_apply _ _ _ _ _ u c t).trans ?_
    have hb : 2 * p + 0 < 32 := by omega
    refine (head_tables _ _ _ _ _ X E W ⟨2 * p + 0, hb⟩ ?_ hw ?_ ?_ ?_ c t).trans ?_
    · intro t j
      exact (ld3_apply x1 _ _ 0 t j (0 : Fin 2) t j rfl (by show _ = 0 + _; omega) (by show _ = 0 + _; omega)).trans (hx1 0 t j _ rfl)
    · intro c t
      exact (ld3_apply x0 _ _ 0 c t (0 : Fin 2) ⟨c.val, by have := c.isLt; omega⟩ t rfl (by show c.val = 0 + c.val; omega) (by show _ = 0 + _; omega)).trans (hx0 0 _ t _ rfl)
    · intro c t
      exact (ld3_apply x0 _ _ 0 c t (0 : Fin 2) ⟨64 + c.val, by have := c.isLt; omega⟩ t rfl rfl (by show _ = 0 + _; omega)).trans (hx0 0 _ t _ rfl)
    · intro c t
      exact (ld3_apply x0 _ _ 0 c t (0 : Fin 2) ⟨128 + c.val, by have := c.isLt; omega⟩ t rfl rfl (by show _ = 0 + _; omega)).trans (hx0 0 _ t _ rfl)
    · unfold blkIdx
      refine congrArg (attnStream scaleK oneK X E W) (funext fun a => Fin.ext ?_)
      have hu : u.val = 0 := by omega
      match a with
      | ⟨0, _⟩ => show 2 * p + 0 = (2 * p + (0 + 1 * u.val)) % 32; omega
      | ⟨1, _⟩ => show c.val = 0 + 1 * c.val; omega
      | ⟨2, _⟩ => show t.val = 0 + 1 * t.val; omega

end Cert.KernelIdeal.KValue

end
-- ==== Proof.KernelValue.lean ====
/-
  The array the kernel returns.

  Every grid point's written-back block is the restriction of one function of the arrays the region finds (the attention
  of all heads, one division each); the blocks cover the region's result, so the result array is that function; the
  host's last reshape is applied to it, and the host's first reshape is what the region finds in place of the first
  argument.
-/
import proofs.«133506_g25683904430144_cont_9to1_844_27_alg».proof.Proof.KernelBlock
import Idealize.ShloMosaic.Lib.StableHlo.Run

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Head Cert.Attn

/-! ## The blocks of the run -/

variable (m : (ℓ : Loc nD τ sig) → Buf (Elt Ideal) ℓ) (ρ : Dev nD → PrngReg)

/-- The printed index maps over the grid: point t fetches block t of the first two operands along the head axis, the
    whole projection, and writes back block t of the result. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The region's result as ONE function of the arrays the region finds. -/
abbrev G (c : Dev nD) : Buf (Elt Ideal) ((c : Thread nD τ).loc main_v1) :=
  attnStream scaleK oneK (V m c main_v0) (V m c main_arg1) (V m c main_arg2)

/-- WHAT POINT t WRITES BACK is block t of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  obtain ⟨e00, e01, e02, e10, e11, e12, e20, e21, e30, e31, e32⟩ := idx_facts t
  have htN : t.val < 16 := lt_of_lt_of_eq t.isLt (show cfg0.N = 16 from N_0)
  funext y
  show out0_3 (iblk m c 0 t) (iblk m c 1 t) (iblk m c 2 t) y = G m c (((cfg0.win 3).blk t).view.emb y)
  refine (block_eq (iblk m c 0 t) (iblk m c 1 t) (iblk m c 2 t) (V m c main_v0) (V m c main_arg1) (V m c main_arg2) t.val htN ?_ ?_ ?_ y).trans ?_
  · intro h r t' b hb
    show V m c main_v0 (((cfg0.win 0).blk t).view.emb (ix3 h r t')) = V m c main_v0 (ix3 b r t')
    refine congrArg (V m c main_v0) (funext fun a => Fin.ext ?_)
    match a with
    | ⟨0, _⟩ => show win0_0.index t (0 : Fin 3) * 2 + 1 * h.val = b.val; rw [e00]; omega
    | ⟨1, _⟩ => show win0_0.index t (1 : Fin 3) * 192 + 1 * r.val = r.val; rw [e01]; omega
    | ⟨2, _⟩ => show win0_0.index t (2 : Fin 3) * 2048 + 1 * t'.val = t'.val; rw [e02]; omega
  · intro h t' j b hb
    show V m c main_arg1 (((cfg0.win 1).blk t).view.emb (ix3 h t' j)) = V m c main_arg1 (ix3 b t' j)
    refine congrArg (V m c main_arg1) (funext fun a => Fin.ext ?_)
    match a with
    | ⟨0, _⟩ => show win0_1.index t (0 : Fin 3) * 2 + 1 * h.val = b.val; rw [e10]; omega
    | ⟨1, _⟩ => show win0_1.index t (1 : Fin 3) * 2048 + 1 * t'.val = t'.val; rw [e11]; omega
    | ⟨2, _⟩ => show win0_1.index t (2 : Fin 3) * 128 + 1 * j.val = j.val; rw [e12]; omega
  · intro o j
    show V m c main_arg2 (((cfg0.win 2).blk t).view.emb (ix2 o j)) = V m c main_arg2 (ix2 o j)
    refine congrArg (V m c main_arg2) (funext fun a => Fin.ext ?_)
    match a with
    | ⟨0, _⟩ => show win0_2.index t (0 : Fin 2) * 192 + 1 * o.val = o.val; rw [e20]; omega
    | ⟨1, _⟩ => show win0_2.index t (1 : Fin 2) * 128 + 1 * j.val = j.val; rw [e21]; omega
  · unfold blkIdx
    refine congrArg (attnStream scaleK oneK (V m c main_v0) (V m c main_arg1) (V m c main_arg2)) (funext fun a => Fin.ext ?_)
    have h0 : (y 0).val < 2 := (y 0).isLt
    match a with
    | ⟨0, _⟩ => show (2 * t.val + (y 0).val) % 32 = win0_3.index t (0 : Fin 3) * 2 + 1 * (y 0).val; rw [e30]; omega
    | ⟨1, _⟩ => show (y 1).val = win0_3.index t (1 : Fin 3) * 64 + 1 * (y 1).val; rw [e31]; omega
    | ⟨2, _⟩ => show (y 2).val = win0_3.index t (2 : Fin 3) * 2048 + 1 * (y 2).val; rw [e32]; omega

/-- An index of the result is in point t's block iff each coordinate is in the block's range on its axis. -/
theorem mem_blk (t : Fin cfg0.N) (i : S32x64x2048.Idx) :
    i ∈ ((cfg0.win 3).blk t).view.set ↔ ∀ a : Fin 3, win0_3.index t a * S2x64x2048.size a ≤ (i a).val ∧ (i a).val < win0_3.index t a * S2x64x2048.size a + S2x64x2048.size a := by
  show i ∈ ((View.whole main_v1).slice (win0_3.rect t)).set ↔ _
  rw [View.set_slice_whole, Rect.mem_set_unit]
  exact Iff.rfl

/-- Every index of the result is in the block of the point that handles its pair of heads. -/
theorem cover (i : S32x64x2048.Idx) : ∃ t : Fin cfg0.N, (cfg0.win 3).flush t = true ∧ i ∈ ((cfg0.win 3).blk t).view.set := by
  have h0 : (i 0).val < 32 := (i 0).isLt
  have h1 : (i 1).val < 64 := (i 1).isLt
  have h2 : (i 2).val < 2048 := (i 2).isLt
  have hN : (i 0).val / 2 < cfg0.N := lt_of_lt_of_eq (show (i 0).val / 2 < 16 by omega) (show cfg0.N = 16 from N_0).symm
  obtain ⟨-, -, -, -, -, -, -, -, e30, e31, e32⟩ := idx_facts ⟨(i 0).val / 2, hN⟩
  refine ⟨⟨(i 0).val / 2, hN⟩, flush0_3 _, ?_⟩
  rw [mem_blk]
  intro a
  match a with
  | ⟨0, _⟩ =>
    show win0_3.index ⟨(i 0).val / 2, hN⟩ (0 : Fin 3) * 2 ≤ (i 0).val ∧ (i 0).val < win0_3.index ⟨(i 0).val / 2, hN⟩ (0 : Fin 3) * 2 + 2
    rw [e30]; show (i 0).val / 2 * 2 ≤ (i 0).val ∧ (i 0).val < (i 0).val / 2 * 2 + 2; omega
  | ⟨1, _⟩ =>
    show win0_3.index ⟨(i 0).val / 2, hN⟩ (1 : Fin 3) * 64 ≤ (i 1).val ∧ (i 1).val < win0_3.index ⟨(i 0).val / 2, hN⟩ (1 : Fin 3) * 64 + 64
    rw [e31]; omega
  | ⟨2, _⟩ =>
    show win0_3.index ⟨(i 0).val / 2, hN⟩ (2 : Fin 3) * 2048 ≤ (i 2).val ∧ (i 2).val < win0_3.index ⟨(i 0).val / 2, hN⟩ (2 : Fin 3) * 2048 + 2048
    rw [e32]; omega

/-- THE ARRAY the region leaves: `G`. -/
theorem final (c : Dev nD) : (dats m 0 c).arrAt 3 cfg0.N = G m c :=
  (dats m 0 c).arrAt_eq_of_cover 3 (G m c) (fun t _ => flushed_eq m c t) cover

/-! ## The host operations around the region, and the run -/

/-- What the region finds in place of the first argument: the host's reshape of it. -/
theorem V_main_v0 (c : Dev nD) :
    V m c main_v0 = shapeCast S32x192x2048 (m ((c : Thread nD τ).loc main_arg0)) Facts₀.shapeCasts_S2x3072x2048_S32x192x2048 := by
  show StableHlo.after hostOps0 (fun b => m (c, b)) (Proc.devRef .tc main_v0) = _
  after_results
  rfl

/-- The whole program's result as a function of its three argument arrays: reshape, attend, reshape. -/
def result (a0 : S2x3072x2048.Idx → EReal) (a1 : SE.Idx → EReal) (a2 : SW.Idx → EReal) : S2x1024x2048.Idx → EReal :=
  shapeCast S2x1024x2048 (attnStream scaleK oneK (shapeCast S32x192x2048 a0 Facts₀.shapeCasts_S2x3072x2048_S32x192x2048) a1 a2)
    Facts₀.shapeCasts_S32x64x2048_S2x1024x2048

/-- The host's last operation reshapes the region's array. -/
theorem tail_eq (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) := by
  have e : Pipeline.withArrays (cfgs 0).spec c (V0 m c) (fun w => (dats m 0 c).arrAt w (cfgs 0).N) (Proc.devRef .tc main_v1) = G m c :=
    (Pipeline.withArrays_arr spec0 launch0.win.arr_inj c _ _ 3).trans (final m c)
  unfold Pipeline.afterTail₀
  show StableHlo.after hostOps1 _ (Proc.devRef .tc main_v2) = _
  after_results
  show shapeCast S2x1024x2048 (Pipeline.withArrays (cfgs 0).spec c (V0 m c) (fun w => (dats m 0 c).arrAt w (cfgs 0).N) (Proc.devRef .tc main_v1))
    Facts₀.shapeCasts_S32x64x2048_S2x1024x2048 = _
  rw [e]
  unfold result G
  rw [V_main_v0, V_main_arg1, V_main_arg2]

/-- THE RUN: every weakly fair execution of the idealized kernel terminates with its result at `result` of the
    argument arrays, which end unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.LibRowMax.lean ====
/-
  The maximum along the last axis of an array, read at an index (general: any extents, no program).

  At the exact values the maximum of two numbers is the lattice maximum of the extended reals, which commutes and
  associates; so a maximum taken along one axis does not depend on the order in which the entries are met, and is the
  fold of `max`, from the starting value, over that axis's coordinates. Two spellings of it are read here: the
  maximum of an a × b matrix along its columns (one value per row), and the maximum of an m × a × b array along its
  last axis (one value per leading pair), the second in the form a whole-array reduction from a rank-0 starting
  value takes. A fold of `max` is never below the value it starts from, so taking the maximum with that value once
  more changes nothing.
-/
import Idealize.ShloMosaic.Lib.ValueIdx
import Idealize.ShloMosaic.PureOps.Ideal.Laws

noncomputable section

namespace Cert.RowMax

open Idealize.ShloMosaic Idealize.ShloMosaic.ValueIdx

/-- At the exact values, the maximum of an a × b matrix along its columns is, at row r, the fold of `max` from the
    starting value over the entries of row r. -/
theorem laneMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun j => v (ix2 r j)) := by
  refine (Ideal.multiReduction_maximumf_single v acc h hφ hacc (ix1 r)).trans ?_
  refine Finset.fold_congr fun j _ => congrArg v ?_
  funext ax
  match ax with
  | ⟨0, _⟩ => exact Fin.ext rfl
  | ⟨1, _⟩ => exact Fin.ext rfl

/-- At the exact values, the maximum of an m × a × b array along its last axis, started from the one entry of a
    starting array, is at (p, q) the fold of `max` from that entry over the entries (p, q, ·). -/
theorem hostMaxLast_apply {m a b : ℕ} {u : Shape} (x : (⟨3, ![m, a, b]⟩ : Shape).Idx → Ideal .f32)
    (init : u.Idx → Ideal .f32) (h' : (⟨3, ![m, a, b]⟩ : Shape).ReducesTo [2] ⟨2, ![m, a]⟩)
    (h : (⟨3, ![m, a, b]⟩ : Shape).Reduces [2] ⟨2, ![m, a]⟩) (hu : 0 < u.numel) (p : Fin m) (q : Fin a) :
    Host.reduce (FloatOps.maximumf (F := Ideal) (φ := .f32)) x init h' hu (ix2 p q)
      = (Finset.univ : Finset (Fin b)).fold max (init (Shape.Idx.first hu)) (fun j => x (ix3 p q j)) := by
  refine (Host.reduce_eq_fold_single (FloatOps.maximumf (F := Ideal) (φ := .f32)) x init h' h hu (ix2 p q)).trans ?_
  refine Finset.fold_congr fun j _ => congrArg x ?_
  funext ax
  match ax with
  | ⟨0, _⟩ => exact Fin.ext rfl
  | ⟨1, _⟩ => exact Fin.ext rfl
  | ⟨2, _⟩ => exact Fin.ext rfl

/-- A fold of `max` is at least its starting value, so the maximum of the two is the fold. -/
theorem max_init_fold {ι : Type} (s : Finset ι) (init : EReal) (f : ι → EReal) :
    max init (s.fold max init f) = s.fold max init f :=
  max_eq_right ((Finset.le_fold_max init).mpr (Or.inl le_rfl))

end Cert.RowMax

end
-- ==== Proof.RefValue.lean ====
/-
  The reference, stage by stage, is the softmax arrangement of the attention block.

  With X the reshaped first argument (32 × 192 × 2048), E the embeddings and W the projection: the transposed product of
  E and W is the null token; the two scaled sums are the queries and keys; their product over the channels is the logit;
  the row maximum, the shifted exponentials, their row total and the quotient are the softmax weights; the last product
  over the key positions is the weighted sum of the values. Products are commuted where the two programs multiply in
  opposite orders.
-/
import proofs.«133506_g25683904430144_cont_9to1_844_27_alg».proof.Proof.Gen.ReferenceIdeal.Read
import proofs.«133506_g25683904430144_cont_9to1_844_27_alg».proof.Proof.AttnSpec
import proofs.«133506_g25683904430144_cont_9to1_844_27_alg».proof.Proof.LibRowMax

noncomputable section

namespace Cert.ReferenceIdeal.RefValue

open Cert.ReferenceIdeal Cert.ReferenceIdeal.Gen Cert.ReferenceIdeal.Read Idealize.ShloMosaic Idealize.ShloMosaic.ValueIdx Cert.Attn

/-- The scale, the zero total and the starting maximum, as the exact values of their bit patterns. -/
abbrev scaleK : EReal := Ideal.ofBits .f32 0x3EB504F3#32
abbrev zeroK : EReal := Ideal.ofBits .f32 0x00000000#32
abbrev ninfK : EReal := Ideal.ofBits .f32 0xFF800000#32

variable (x0 : (⟨S2x3072x2048, .f32⟩ : BufTy).Contents (Elt Ideal)) (x1 : (⟨S32x2048x128, .f32⟩ : BufTy).Contents (Elt Ideal)) (x2 : (⟨S192x128, .f32⟩ : BufTy).Contents (Elt Ideal))

/-- The transposed product of the embeddings and the projection is the null token. -/
theorem null_ref (b : Fin 32) (o : Fin 192) (t : Fin 2048) :
    val_main_v5 (F := Ideal) x1 x2 (ix3 b o t) = nullTok x1 x2 b o t := by
  rw [val_main_v5_apply, val_main_v4_apply]
  unfold nullTok
  refine Finset.sum_congr rfl fun k _ => ?_
  have hl : lidx_main_v4 (idx_main_v5 (ix3 b o t)) k = ix3 b t k := funext fun a => Fin.ext (by match a with | ⟨0, _⟩ => rfl | ⟨1, _⟩ => rfl | ⟨2, _⟩ => rfl)
  have hr : ridx_main_v4 (idx_main_v5 (ix3 b o t)) k = ix2 o k := funext fun a => Fin.ext (by match a with | ⟨0, _⟩ => rfl | ⟨1, _⟩ => rfl)
  rw [hl, hr, mul_comm]

/-- The scaled queries. -/
theorem q_ref (b : Fin 32) (c : Fin 64) (t : Fin 2048) :
    val_main_v11 (F := Ideal) x0 x1 x2 (ix3 b c t) = qOf scaleK (val_main_v0 (F := Ideal) x0) x1 x2 b c t := by
  rw [val_main_v11_apply, val_main_v9_apply, val_main_v1_apply, val_main_v6_apply]
  have h1 : idx_main_v1 (ix3 b c t) = ix3 b ⟨c.val, by have := c.isLt; omega⟩ t := funext fun a => Fin.ext (by match a with | ⟨0, _⟩ => rfl | ⟨1, _⟩ => rfl | ⟨2, _⟩ => rfl)
  have h6 : idx_main_v6 (ix3 b c t) = ix3 b ⟨c.val, by have := c.isLt; omega⟩ t := funext fun a => Fin.ext (by match a with | ⟨0, _⟩ => rfl | ⟨1, _⟩ => rfl | ⟨2, _⟩ => rfl)
  rw [h1, h6, null_ref]
  rfl

/-- The scaled keys. -/
theorem k_ref (b : Fin 32) (c : Fin 64) (s : Fin 2048) :
    val_main_v14 (F := Ideal) x0 x1 x2 (ix3 b c s) = kOf scaleK (val_main_v0 (F := Ideal) x0) x1 x2 b c s := by
  rw [val_main_v14_apply, val_main_v12_apply, val_main_v2_apply, val_main_v7_apply]
  have h1 : idx_main_v2 (ix3 b c s) = ix3 b ⟨64 + c.val, by have := c.isLt; omega⟩ s := funext fun a => Fin.ext (by match a with | ⟨0, _⟩ => rfl | ⟨1, _⟩ => rfl | ⟨2, _⟩ => rfl)
  have h6 : idx_main_v7 (ix3 b c s) = ix3 b ⟨64 + c.val, by have := c.isLt; omega⟩ s := funext fun a => Fin.ext (by match a with | ⟨0, _⟩ => rfl | ⟨1, _⟩ => rfl | ⟨2, _⟩ => rfl)
  rw [h1, h6, null_ref]
  rfl

/-- The values. -/
theorem v_ref (b : Fin 32) (c : Fin 64) (s : Fin 2048) :
    val_main_v27 (F := Ideal) x0 x1 x2 (ix3 b c s) = vOf (val_main_v0 (F := Ideal) x0) x1 x2 b c s := by
  rw [val_main_v27_apply, val_main_v3_apply, val_main_v8_apply]
  have h1 : idx_main_v3 (ix3 b c s) = ix3 b ⟨128 + c.val, by have := c.isLt; omega⟩ s := funext fun a => Fin.ext (by match a with | ⟨0, _⟩ => rfl | ⟨1, _⟩ => rfl | ⟨2, _⟩ => rfl)
  have h6 : idx_main_v8 (ix3 b c s) = ix3 b ⟨128 + c.val, by have := c.isLt; omega⟩ s := funext fun a => Fin.ext (by match a with | ⟨0, _⟩ => rfl | ⟨1, _⟩ => rfl | ⟨2, _⟩ => rfl)
  rw [h1, h6, null_ref]
  rfl

/-- The logits. -/
theorem logit_ref (b : Fin 32) (t s : Fin 2048) :
    val_main_v15 (F := Ideal) x0 x1 x2 (ix3 b t s) = logit (qOf scaleK (val_main_v0 (F := Ideal) x0) x1 x2 b) (kOf scaleK (val_main_v0 (F := Ideal) x0) x1 x2 b) t s := by
  rw [val_main_v15_apply]
  unfold logit
  refine Finset.sum_congr rfl fun k _ => ?_
  have hl : lidx_main_v15 (ix3 b t s) k = ix3 b k t := funext fun a => Fin.ext (by match a with | ⟨0, _⟩ => rfl | ⟨1, _⟩ => rfl | ⟨2, _⟩ => rfl)
  have hr : ridx_main_v15 (ix3 b t s) k = ix3 b k s := funext fun a => Fin.ext (by match a with | ⟨0, _⟩ => rfl | ⟨1, _⟩ => rfl | ⟨2, _⟩ => rfl)
  rw [hl, hr, q_ref, k_ref]

/-- The row maxima. -/
theorem max_ref (b : Fin 32) (t : Fin 2048) :
    val_main_v18 (F := Ideal) x0 x1 x2 (ix2 b t) = rowMax ninfK (qOf scaleK (val_main_v0 (F := Ideal) x0) x1 x2 b) (kOf scaleK (val_main_v0 (F := Ideal) x0) x1 x2 b) t := by
  rw [val_main_v18_apply]
  unfold val_main_v16
  rw [Cert.RowMax.hostMaxLast_apply _ _ reducesTo_S32x2048x2048_S32x2048_d2 (by decide) h_S_ b t]
  unfold rowMax
  refine congrArg (max ninfK) (Finset.fold_congr fun j _ => logit_ref x0 x1 x2 b t j)

/-- The shifted exponentials. -/
theorem exp_ref (b : Fin 32) (t s : Fin 2048) :
    val_main_v22 (F := Ideal) x0 x1 x2 (ix3 b t s)
      = Ideal.exp (logit (qOf scaleK (val_main_v0 (F := Ideal) x0) x1 x2 b) (kOf scaleK (val_main_v0 (F := Ideal) x0) x1 x2 b) t s - rowMax ninfK (qOf scaleK (val_main_v0 (F := Ideal) x0) x1 x2 b) (kOf scaleK (val_main_v0 (F := Ideal) x0) x1 x2 b) t) := by
  rw [val_main_v22_apply, val_main_v21_apply, val_main_v20_apply, val_main_v19_apply]
  have h : idx_main_v19 (idx_main_v20 (ix3 b t s)) = ix2 b t := funext fun a => Fin.ext (by match a with | ⟨0, _⟩ => rfl | ⟨1, _⟩ => rfl)
  rw [h, max_ref, logit_ref]
  rfl

/-- The row totals. -/
theorem total_ref (b : Fin 32) (t : Fin 2048) :
    val_main_v23 (F := Ideal) x0 x1 x2 (ix2 b t)
      = zeroK + ∑ s' : Fin 2048, Ideal.exp (logit (qOf scaleK (val_main_v0 (F := Ideal) x0) x1 x2 b) (kOf scaleK (val_main_v0 (F := Ideal) x0) x1 x2 b) t s' - rowMax ninfK (qOf scaleK (val_main_v0 (F := Ideal) x0) x1 x2 b) (kOf scaleK (val_main_v0 (F := Ideal) x0) x1 x2 b) t) := by
  rw [val_main_v23_apply]
  refine congrArg (zeroK + ·) (Finset.sum_congr rfl fun k _ => ?_)
  have h : idx_main_v23 (ix2 b t) k = ix3 b t k := funext fun a => Fin.ext (by match a with | ⟨0, _⟩ => rfl | ⟨1, _⟩ => rfl | ⟨2, _⟩ => rfl)
  rw [h, exp_ref]

/-- The softmax weights. -/
theorem weight_ref (b : Fin 32) (t s : Fin 2048) :
    val_main_v26 (F := Ideal) x0 x1 x2 (ix3 b t s)
      = Ideal.div (Ideal.exp (logit (qOf scaleK (val_main_v0 (F := Ideal) x0) x1 x2 b) (kOf scaleK (val_main_v0 (F := Ideal) x0) x1 x2 b) t s - rowMax ninfK (qOf scaleK (val_main_v0 (F := Ideal) x0) x1 x2 b) (kOf scaleK (val_main_v0 (F := Ideal) x0) x1 x2 b) t))
          (zeroK + ∑ s' : Fin 2048, Ideal.exp (logit (qOf scaleK (val_main_v0 (F := Ideal) x0) x1 x2 b) (kOf scaleK (val_main_v0 (F := Ideal) x0) x1 x2 b) t s' - rowMax ninfK (qOf scaleK (val_main_v0 (F := Ideal) x0) x1 x2 b) (kOf scaleK (val_main_v0 (F := Ideal) x0) x1 x2 b) t)) := by
  rw [val_main_v26_apply, val_main_v25_apply, val_main_v24_apply]
  have h : idx_main_v24 (idx_main_v25 (ix3 b t s)) = ix2 b t := funext fun a => Fin.ext (by match a with | ⟨0, _⟩ => rfl | ⟨1, _⟩ => rfl)
  rw [h, exp_ref, total_ref]
  rfl

/-- The weighted sum of the values: one head of the reference is the softmax arrangement. -/
theorem out_ref (b : Fin 32) (c : Fin 64) (t : Fin 2048) :
    val_main_v28 (F := Ideal) x0 x1 x2 (ix3 b c t) = headSoftmax zeroK ninfK (qOf scaleK (val_main_v0 (F := Ideal) x0) x1 x2 b) (kOf scaleK (val_main_v0 (F := Ideal) x0) x1 x2 b) (vOf (val_main_v0 (F := Ideal) x0) x1 x2 b) c t := by
  rw [val_main_v28_apply]
  unfold headSoftmax
  refine Finset.sum_congr rfl fun k _ => ?_
  have hl : lidx_main_v28 (ix3 b c t) k = ix3 b c k := funext fun a => Fin.ext (by match a with | ⟨0, _⟩ => rfl | ⟨1, _⟩ => rfl | ⟨2, _⟩ => rfl)
  have hr : ridx_main_v28 (ix3 b c t) k = ix3 b t k := funext fun a => Fin.ext (by match a with | ⟨0, _⟩ => rfl | ⟨1, _⟩ => rfl | ⟨2, _⟩ => rfl)
  rw [hl, hr, v_ref, weight_ref]

/-- The reference before its last reshape is the softmax arrangement of the whole block. -/
theorem ref_eq : val_main_v28 (F := Ideal) x0 x1 x2 = attnSoftmax scaleK zeroK ninfK (val_main_v0 (F := Ideal) x0) x1 x2 := by
  funext i
  rw [eq_ix3 i]
  exact out_ref x0 x1 x2 (i 0) (i 1) (i 2)

end Cert.ReferenceIdeal.RefValue

end
-- ==== Proof.Finite.lean ====
/-
  What the precondition says: every entry of the three argument arrays is a real number.

  The precondition is the conjunction, over the three arrays, of "every entry's absolute value is below +∞". At the
  exact values the absolute value of x is max x (−x), which is below +∞ exactly when x is neither infinity; so each
  entry is the image of a real.
-/
import proofs.«133506_g25683904430144_cont_9to1_844_27_alg».proof.Pre_finite_inputs
import proofs.«133506_g25683904430144_cont_9to1_844_27_alg».proof.Proof.Gen.Pre_finite_inputs
import proofs.«133506_g25683904430144_cont_9to1_844_27_alg».proof.Proof.LibFinite
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs Cert.Pre_finite_inputs.Gen Cert.Lib.Finite

instance : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An entry whose absolute value compares below +∞ is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have hlt : max x (-x) < ⊤ := by
    by_contra hn
    have : FloatOps.cmpf (F := Ideal) (φ := .f32) .olt (FloatOps.hostAbsf (F := Ideal) (φ := .f32) x)
        (FloatOps.ofBits (F := Ideal) .f32 0x7F800000#32) = 0#1 := by
      show BitVec.ofBool (decide (max x (-x) < Ideal.ofBits .f32 0x7F800000#32)) = 0#1
      rw [ofBits_inf, decide_eq_false hn]; rfl
    rw [this] at h; exact absurd h (by decide)
  induction x using EReal.rec with
  | bot => exact absurd hlt (by simp)
  | coe r => exact ⟨r, rfl⟩
  | top => exact absurd hlt (by simp)

/-- The precondition gives: every entry of each argument is a real. -/
theorem reals_of_pre (a0 : FVec Ideal S2x3072x2048 .f32) (a1 : FVec Ideal S32x2048x128 .f32) (a2 : FVec Ideal S192x128 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h38, h12⟩ := IntOp.andi_eq_one.1 h0
  obtain ⟨h3, h7⟩ := IntOp.andi_eq_one.1 h38
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i)⟩

end Cert.PreFinite

end
-- ==== Proof.Words.lean ====
/-
  The four float words both programs mention, as exact values: 0x00000000 is 0 (the library's), 0x3F800000 is 1,
  0xFF800000 is −∞, and the scale 0x3EB504F3 (a normal number) is a real.
-/
import Idealize.ShloMosaic.PureOps.Ideal
import Idealize.ShloMosaic.PureOps.Ideal.Laws
import Idealize.ShloMosaic.PureOps.IdealRules
import proofs.«133506_g25683904430144_cont_9to1_844_27_alg».proof.Proof.LibFinite

noncomputable section

namespace Cert.Attn.Words

open Idealize.ShloMosaic Cert.Lib.Finite

theorem one_eq : Ideal.ofBits .f32 0x3F800000#32 = 1 := IdealRules.sign_bit.ideal_onePat .f32

theorem ninf_eq : Ideal.ofBits .f32 0xFF800000#32 = ⊥ := by simp [Ideal.ofBits, Ideal.ieee]

theorem scale_real : IsReal (Ideal.ofBits .f32 0x3EB504F3#32) := by
  simp only [Ideal.ofBits, Ideal.ieee]
  rw [if_neg (by decide), if_neg (by decide)]
  exact ⟨_, rfl⟩

end Cert.Attn.Words

end
-- ==== Proof.Claims.lean ====
/-
  The five claims.

  The three frames are the generated ones (the reference's is its generated run with the result dropped); the
  idealization rewrote nothing, so `preserves` is trivial. For `algebraic`: the idealized kernel ends at `result` of its
  arguments (reshape, the attention of all heads with one division per entry, reshape); the idealized reference ends
  at the same two reshapes around the softmax arrangement; the precondition makes every entry of the arguments a
  real, the scale is a real, and at real entries the two arrangements are one function.
-/
import proofs.«133506_g25683904430144_cont_9to1_844_27_alg».proof.Defs
import proofs.«133506_g25683904430144_cont_9to1_844_27_alg».proof.Proof.Gen.Kernel.Frame
import proofs.«133506_g25683904430144_cont_9to1_844_27_alg».proof.Proof.KernelValue
import proofs.«133506_g25683904430144_cont_9to1_844_27_alg».proof.Proof.RefValue
import proofs.«133506_g25683904430144_cont_9to1_844_27_alg».proof.Proof.Finite
import proofs.«133506_g25683904430144_cont_9to1_844_27_alg».proof.Proof.Words

noncomputable section

namespace Cert.Proof.Claims

open Idealize.ShloMosaic Idealize.ShloMosaic.TcCoe Idealize.SL.Sem Cert.Attn Cert.Lib.Finite

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At real entries the reference's result is the kernel's `result` of the same arrays. -/
theorem ref_result (x0 : (⟨Cert.ReferenceIdeal.S2x3072x2048, .f32⟩ : BufTy).Contents (Elt Ideal)) (x1 : (⟨Cert.ReferenceIdeal.S32x2048x128, .f32⟩ : BufTy).Contents (Elt Ideal))
    (x2 : (⟨Cert.ReferenceIdeal.S192x128, .f32⟩ : BufTy).Contents (Elt Ideal))
    (h0 : ∀ i, IsReal (x0 i)) (h1 : ∀ i, IsReal (x1 i)) (h2 : ∀ i, IsReal (x2 i)) :
    Cert.ReferenceIdeal.Read.val_main_v29 (F := Ideal) x0 x1 x2 = Cert.KernelIdeal.KValue.result x0 x1 x2 := by
  unfold Cert.ReferenceIdeal.Read.val_main_v29 Cert.KernelIdeal.KValue.result
  rw [Cert.ReferenceIdeal.RefValue.ref_eq]
  unfold Cert.ReferenceIdeal.Read.val_main_v0
  show shapeCast _ (attnSoftmax (Ideal.ofBits .f32 0x3EB504F3#32) (Ideal.ofBits .f32 0x00000000#32) (Ideal.ofBits .f32 0xFF800000#32)
    (shapeCast _ x0 _) x1 x2) _ = _
  rw [Ideal.ofBits_zero_f32, Words.ninf_eq, attnSoftmax_eq_attnStream _ Words.scale_real (shapeCast _ x0 Cert.ReferenceIdeal.Gen.shapeCasts_S2x3072x2048_S32x192x2048) x1 x2 (fun i => h0 _) h1 h2, ← Words.one_eq]

theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩) (Cert.ReferenceIdeal.Value.run (F := Ideal) m' ρ')
  obtain ⟨r0, r1, r2⟩ := Cert.PreFinite.reals_of_pre _ _ _ (hpre c)
  show Cert.ReferenceIdeal.Value.res_main_v29 m' c = Cert.KernelIdeal.KValue.result _ _ _
  rw [Cert.ReferenceIdeal.Read.val_main_v29_eq, (hagree c).1, (hagree c).2.1, (hagree c).2.2]
  exact ref_result _ _ _ r0 r1 r2

end Cert.Proof.Claims

end
-- ==== Proof.lean ====
/- The proof of `Cert.Claim`: an attention block, computed by a kernel that streams each head's exponential sums and
   divides once, against a reference that normalises the weights by a softmax.

   Both programs reshape the first argument into 32 heads of query, key and value rows, add to each head its null
   token (the projection of its embeddings), scale queries and keys by one literal, take e to the logits, and reshape
   the result back. The kernel multiplies e^{logits} into the values extended by a column of ones and divides the
   value columns by the ones column; the reference subtracts the row maximum before the exponential and divides each
   weight by the row total before the weighted sum. Under the precondition every entry is a real number, and there
   the two are one function (Proof/LibSoftmax.lean). The modules: LibSoftmax (the law of one head), LibFinite and LibRowMax (general lemmas: which operations keep an entry real; a maximum along the last axis as a fold), AttnSpec (all heads,
   whole arrays), KernelOps / Head / HeadPayload (the body's operations and its two stores at an index), KernelBlock /
   KernelValue (blocks to the array, the host operations around the region), RefValue (the reference stage by stage),
   Finite (the precondition), Words (the float literals), Claims (the five claims). -/
import proofs.«133506_g25683904430144_cont_9to1_844_27_alg».proof.Defs
import proofs.«133506_g25683904430144_cont_9to1_844_27_alg».proof.Proof.Claims
import proofs.«133506_g25683904430144_cont_9to1_844_27_alg».proof.Proof.Gen.Kernel
import proofs.«133506_g25683904430144_cont_9to1_844_27_alg».proof.Proof.Gen.KernelIdeal
import proofs.«133506_g25683904430144_cont_9to1_844_27_alg».proof.Proof.Gen.ReferenceIdeal
import proofs.«133506_g25683904430144_cont_9to1_844_27_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
